-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8x2048x1024 .f32) (main_arg1 : FVec F S8x2048x1024 .f32) (main_arg2 : FVec F S8x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S16384x1024 : Shape := ⟨2, ![16384, 1024]⟩
abbrev S512x1024 : Shape := ⟨2, ![512, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 31
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .bf16⟩
  | .hbm, ⟨27, _⟩ => ⟨S16384x1024, .bf16⟩
  | .hbm, ⟨28, _⟩ => ⟨S8x2048x1024, .bf16⟩
  | .hbm, ⟨29, _⟩ => ⟨S8x2048x1024, .bf16⟩
  | .hbm, ⟨30, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1024x1024, .bf16⟩
  | .local _ .vmem, ⟨15, _⟩ => ⟨S1x1024, .f32⟩
  | .local _ .vmem, ⟨16, _⟩ => ⟨S1x2048x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x256x1024, .f32⟩
  | .local _ .vmem, ⟨21, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bcast_S_S1024x1024 : S_.BroadcastsInDim S1024x1024 (![] : Fin 0 → Fin S1024x1024.rank)
  bitsLt_bf16_f32 : FTy.bits .bf16 < FTy.bits .f32
  transposes_S1024x1024_S1024x1024_1_0 : S1024x1024.Transposes [1, 0] S1024x1024
  bcast_S_S1024 : S_.BroadcastsInDim S1024 (![] : Fin 0 → Fin S1024.rank)
  shapeCasts_S1024_S1x1024 : S1024.ShapeCasts S1x1024
  shapeCasts_S8x2048x1024_S16384x1024 : S8x2048x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S16384x1024_S8x2048x1024 : S16384x1024.ShapeCasts S8x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  broadcasts_S1x1024_S256x1024 : S1x1024.Broadcasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .f32 = 32 ∨ (Rect.block (s := S16384x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .bf16 = 32 ∨ (Rect.block (s := S16384x1024) S512x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S16384x1024.size a
  hwx0_7 : ∀ i : grid0.Coords, EltTy.bits .bf16 = 32 ∨ (Rect.block (s := S16384x1024) S512x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x2048x1024.size a
  hwx1_0 : ∀ i : grid1.Coords, EltTy.bits .f32 = 32 ∨ (Rect.block (s := S8x2048x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S8x2048x1024.size a
  hwx1_3 : ∀ i : grid1.Coords, EltTy.bits .bf16 = 32 ∨ (Rect.block (s := S8x2048x1024) S1x2048x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x1024.size a ≤ S8x2048x1024.size a
  hwx1_4 : ∀ i : grid1.Coords, EltTy.bits .bf16 = 32 ∨ (Rect.block (s := S8x2048x1024) S1x2048x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S8x2048x1024.size a
  hwx1_5 : ∀ i : grid1.Coords, EltTy.bits .f32 = 32 ∨ (Rect.block (s := S8x2048x1024) S1x256x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v13) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_0) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15_1) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x2048x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x2048x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8x2048x1024, .f32⟩
  | .hbm, ⟨10, _⟩ => ⟨S1x1x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S1x1x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S_, .f32⟩
  | .hbm, ⟨31, _⟩ => ⟨S8x2048, .f32⟩
  | .hbm, ⟨32, _⟩ => ⟨S8x2048, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KernelRun.lean ====
/-
  The idealized kernel's run with its result named: every weakly fair execution of the program — two host stretches, the
  key/value projection call, a stretch of two reshapes, the attention call — terminates without fault, leaves the arguments as
  launched, and leaves the result array at the contents the last boundary of the run holds for it, `W4`: the attention call's
  write-backs folded over its grid.
-/
import proofs.«165551_j90838558310712_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array read off the last boundary's contents. -/
theorem run_value : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v18 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

/-- The last boundary holds, for the result array, the attention call's output window folded over the whole grid. -/
theorem W4_result (c : Dev nD) :
    W4 m ρ c (Proc.devRef .tc main_v18) = (dat1 (V3 m ρ) c).arrAt 5 cfg1.N := W4_arr m ρ c 5

end Cert.KernelIdeal.RunValue

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«165551_j90838558310712_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«165551_j90838558310712_2_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.LibTransposed.lean ====
/-
  General lemmas: a weight matrix stored with one row per OUTPUT feature, `[N, K]`, so that a dense layer reads
  `X · Wᵀ + b`. Such a matrix read as the `[K, N]` array `tr W` (entry `(k, q)` is `W (q, k)`) turns the product
  that contracts BOTH operands along their last axis into the plain product with `tr W`, and the host's transpose
  by `[1, 0]` is the same reading. With these the layer is the plain `affine` layer of `tr W`, whose entries depend
  on one row of `X` only. None mentions a program.
-/
import proofs.«165551_j90838558310712_2_alg».proof.Proof.LibRowBlocks

noncomputable section

namespace Cert.TransposedLib

open Idealize.ShloMosaic Idealize.ShloMosaic.ValueIdx Cert.LayoutLib Cert.DenseLib Cert.RowBlocks

/-- An `[N, K]` array read as `[K, N]`: entry `(k, q)` is entry `(q, k)` of the array. -/
def tr {N K : ℕ} {α : Type} (W : (⟨2, ![N, K]⟩ : Shape).Idx → α) : (⟨2, ![K, N]⟩ : Shape).Idx → α :=
  fun i => W (ix2 (n0 := N) (i 1) (n1 := K) (i 0))

theorem tr_apply {N K : ℕ} {α : Type} (W : (⟨2, ![N, K]⟩ : Shape).Idx → α) (k : Fin K) (q : Fin N) :
    tr W (ix2 k q) = W (ix2 q k) := rfl

/-- The `[M, K] × [N, K]` product contracting the LAST axis of both operands: its sum over the contraction index, at
    output `(p, q)`, is the sum over `k : Fin K` of the left operand at `(p, k)` times the right operand at `(q, k)`. -/
theorem dot_transposedRhs_sum {M K N : ℕ} (D : DotDims ⟨2, ![M, K]⟩ ⟨2, ![N, K]⟩ ⟨2, ![M, N]⟩)
    (hD : D = DotDims.transposedRhs M K N)
    (l : (⟨2, ![M, K]⟩ : Shape).Idx → EReal) (r : (⟨2, ![N, K]⟩ : Shape).Idx → EReal) (p : Fin M) (q : Fin N) :
    ∑ k : D.contr.Idx, l (D.lhsIdx (ix2 p q) k) * r (D.rhsIdx (ix2 p q) k) = ∑ k : Fin K, l (ix2 p k) * r (ix2 q k) := by
  subst hD
  rw [← Equiv.sum_comp (contrEquiv1 (DotDims.transposedRhs M K N) K rfl rfl).symm]
  refine Finset.sum_congr rfl fun k _ => ?_
  have e := contrEquiv1_symm_val (DotDims.transposedRhs M K N) K rfl rfl k
  have hl : (DotDims.transposedRhs M K N).lhsIdx (ix2 p q) ((contrEquiv1 (DotDims.transposedRhs M K N) K rfl rfl).symm k) = ix2 p k :=
    funext fun c => Fin.ext (by
      match c with
      | ⟨0, _⟩ => rfl
      | ⟨1, _⟩ => exact ((DotDims.transposedRhs M K N).lhsIdx_val_of_single (cl := (1 : Fin 2)) rfl _ _).trans e)
  have hr : (DotDims.transposedRhs M K N).rhsIdx (ix2 p q) ((contrEquiv1 (DotDims.transposedRhs M K N) K rfl rfl).symm k) = ix2 q k :=
    funext fun c => Fin.ext (by
      match c with
      | ⟨0, _⟩ => rfl
      | ⟨1, _⟩ => exact ((DotDims.transposedRhs M K N).rhsIdx_val_of_single (cr := (1 : Fin 2)) rfl _ _).trans e)
  rw [hl, hr]

/-- A product contracting both operands along their last axis, accumulated into the zero splat, is the plain product
    with the right operand read transposed. -/
theorem matmul_transposedRhs_eq_mm {M K N : ℕ} (D : DotDims ⟨2, ![M, K]⟩ ⟨2, ![N, K]⟩ ⟨2, ![M, N]⟩)
    (hD : D = DotDims.transposedRhs M K N) {φ₁ φ₂ : FTy} (L : FVec Ideal ⟨2, ![M, K]⟩ φ₁) (R : FVec Ideal ⟨2, ![N, K]⟩ φ₂) :
    matmul D none L R (constant ⟨2, ![M, N]⟩ .f32 0x00000000#32) = mm L (tr R) := by
  funext i
  obtain ⟨p, q, rfl⟩ : ∃ (p : Fin M) (q : Fin N), i = ix2 p q := ⟨i 0, i 1, eq_ix2 i⟩
  exact (Ideal.matmul_constant_zero_apply D none L R (ix2 p q)).trans (dot_transposedRhs_sum D hD L R p q)

/-- The host's transpose of an `[N, K]` array by `[1, 0]` is the same reading. -/
theorem transpose_eq_tr {N K : ℕ} {α : Type} (W : (⟨2, ![N, K]⟩ : Shape).Idx → α)
    (h : (⟨2, ![N, K]⟩ : Shape).Transposes [1, 0] ⟨2, ![K, N]⟩) :
    transpose ⟨2, ![K, N]⟩ [1, 0] W h = tr W := by
  funext i
  obtain ⟨k, q, rfl⟩ : ∃ (k : Fin K) (q : Fin N), i = ix2 k q := ⟨i 0, i 1, eq_ix2 i⟩
  exact transpose_apply [1, 0] W h (ix2 k q) (ix2 q k) (fun b => match b with
    | ⟨0, _⟩ => rfl
    | ⟨1, _⟩ => rfl)

/-- An entry of `P · W + b` is determined by its row of `P`: if row `j 0` of `P'` is row `i 0` of `P`, the weights
    and the bias agree and the columns `j 1`, `i 1` are the same, the two entries are equal. -/
theorem affine_eq_of_row {M M' K N : ℕ} (P' : (⟨2, ![M', K]⟩ : Shape).Idx → EReal) (W' : (⟨2, ![K, N]⟩ : Shape).Idx → EReal)
    (b' : Fin N → EReal) (P : (⟨2, ![M, K]⟩ : Shape).Idx → EReal) (W : (⟨2, ![K, N]⟩ : Shape).Idx → EReal) (b : Fin N → EReal)
    (j : (⟨2, ![M', N]⟩ : Shape).Idx) (i : (⟨2, ![M, N]⟩ : Shape).Idx)
    (hb : b' = b) (hw : W' = W) (hq : (j 1).val = (i 1).val)
    (hx : ∀ k : Fin K, P' (ix2 (n0 := M') (j 0) k) = P (ix2 (n0 := M) (i 0) k)) :
    affine P' W' b' j = affine P W b i :=
  biased_eq_of_entry (mm P' W') b' (mm P W) b j i hb hq (mm_eq_of_row P' W' P W j i hw hq hx)

/-- The vector unit's spelling of the layer on a block of rows: both operands narrowed (the identity on the extended
    reals), the product contracting both last axes accumulated into zero, the one-row bias broadcast down the rows and
    added — the plain layer with the weights read transposed. -/
theorem unit_affine_transposed {M K N : ℕ} (D : DotDims ⟨2, ![M, K]⟩ ⟨2, ![N, K]⟩ ⟨2, ![M, N]⟩)
    (hD : D = DotDims.transposedRhs M K N)
    (X : FVec Ideal ⟨2, ![M, K]⟩ .f32) (W : FVec Ideal ⟨2, ![N, K]⟩ .f32) (v : FVec Ideal ⟨2, ![1, N]⟩ .f32)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩)
    (hx : FTy.bf16.bits < FTy.f32.bits) (hw : FTy.bf16.bits < FTy.f32.bits) :
    addf (matmul D none (truncf .bf16 (shapeCast ⟨2, ![M, K]⟩ X h0) hx) (truncf .bf16 W hw)
        (constant ⟨2, ![M, N]⟩ .f32 0x00000000#32))
      (broadcastTo ⟨2, ![M, N]⟩ (shapeCast ⟨2, ![1, N]⟩ v h2) hb)
      = affine X (tr W) (fun c => v (ix2 (0 : Fin 1) c)) := by
  rw [shapeCast_self, shapeCast_self, matmul_transposedRhs_eq_mm D hD, broadcastTo_eq_rows]
  rfl

end Cert.TransposedLib

end
-- ==== Proof.KvValue.lean ====
/-
  The key/value projection call as whole-array functions. At grid point `t` the body reads rows `512·t … 512·t + 511` of the
  flattened key (value) embeddings, the whole weight matrix (already transposed, one column per output feature) and the one-row bias, and
  stores `x · W + b` for those rows. A row of `x · W + b` depends on that row of `x` only, so the 32 blocks written back are the
  blocks of ONE function of the arrays the call finds: `x · W + b` over all 16384 rows; the blocks tile the array, so it ends holding it.
-/
import proofs.«165551_j90838558310712_2_alg».proof.Proof.Gen.KernelIdeal.Frame
import proofs.«165551_j90838558310712_2_alg».proof.Proof.LibTransposed
import Idealize.ShloMosaic.Lib.Pipeline.Value

set_option maxRecDepth 16384

noncomputable section

namespace Cert.KernelIdeal.KvValue

open Cert.KernelIdeal Cert.KernelIdeal.Gen Idealize.ShloMosaic Idealize.ShloMosaic.TcCoe Idealize.SL.Sem Idealize.ShloMosaic.ValueIdx
open Idealize.ShloMosaic.Pipeline (Dat)
open Cert.LayoutLib Cert.DenseLib Cert.RowBlocks Cert.TransposedLib

/-- `x · W + b` over all the rows, the bias read off a one-row array. -/
abbrev kvOut (X : S16384x1024.Idx → EReal) (W : S1024x1024.Idx → EReal) (b : S1x1024.Idx → EReal) : S16384x1024.Idx → EReal :=
  affine X W (fun q => b (ix2 (0 : Fin 1) q))

/-- The body's first stored value is `x · W + b` of its loads (the changes of float format are the identity on the extended reals). -/
theorem pay1_eq (x0 : FVec Ideal S512x1024 .f32) (x1 : FVec Ideal S1024x1024 .bf16) (x2 : FVec Ideal S1x1024 .f32) :
    k0_pay1 (F := Ideal) x0 x1 x2 = affine x0 x1 (fun q => x2 (ix2 (0 : Fin 1) q)) := by
  unfold k0_pay1
  dsimp only
  rw [shapeCast_self, shapeCast_self, shapeCast_self]
  show addf (matmul dot_S512x1024_S1024x1024_S512x1024_1_0_0_1_n_n none x0 x1 (constant S512x1024 .f32 0x00000000#32))
      (broadcastTo S512x1024 x2 broadcasts_S1x1024_S512x1024) = _
  rw [matmul_eq_mm dot_S512x1024_S1024x1024_S512x1024_1_0_0_1_n_n rfl x0 x1, broadcastTo_eq_rows]
  rfl

/-- The second stored value likewise. -/
theorem pay2_eq (x3 : FVec Ideal S512x1024 .f32) (x4 : FVec Ideal S1024x1024 .bf16) (x5 : FVec Ideal S1x1024 .f32) :
    k0_pay2 (F := Ideal) x3 x4 x5 = affine x3 x4 (fun q => x5 (ix2 (0 : Fin 1) q)) := by
  unfold k0_pay2
  dsimp only
  rw [shapeCast_self, shapeCast_self, shapeCast_self]
  show addf (matmul dot_S512x1024_S1024x1024_S512x1024_1_0_0_1_n_n none x3 x4 (constant S512x1024 .f32 0x00000000#32))
      (broadcastTo S512x1024 x5 broadcasts_S1x1024_S512x1024) = _
  rw [matmul_eq_mm dot_S512x1024_S1024x1024_S512x1024_1_0_0_1_n_n rfl x3 x4, broadcastTo_eq_rows]
  rfl

theorem hz : (![0, 0] : Fin 2 → Nat) = fun _ => 0 := funext fun a => by fin_cases a <;> rfl

/-- The printed index maps over the grid: the row windows sit at block `t`, the weight and bias windows at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

variable (V : (c : Dev nD) → (b : Ref sig .tc) → Buf (Elt Ideal) ((c : Thread nD τ).loc b))

/-- What point `t` writes back to the key projection's array is block `t` of `x · W + b` of the arrays the call finds. -/
theorem flushed6_eq (c : Dev nD) (t : Fin cfg0.N) :
    (dat0 V c).flushed 6 t = ((cfg0.win 6).blk t).view.read (Elt Ideal) (kvOut (V c main_v13) (V c main_v5) (V c main_v11)) := by
  show (cfg0.win 6).cut (grid0.coords t) ((dat0 V c).after 6 t) = _
  rw [after0_6]
  unfold out0_6
  rw [View.canon_unit_zero hz]
  simp only [View.ld_unit_zero (S := S512x1024) hz, View.ld_unit_zero (S := S1024x1024) hz, View.ld_unit_zero (S := S1x1024) hz]
  rw [pay1_eq]
  obtain ⟨e00, e01, e10, e11, e20, e21, e30, e31, e40, e41, e50, e51, e60, e61, e70, e71⟩ := idx_facts t
  funext j
  show affine (iblk0 V c 0 t) (iblk0 V c 1 t) (fun q => iblk0 V c 2 t (ix2 (0 : Fin 1) q)) j
    = affine (V c main_v13) (V c main_v5) (fun q => V c main_v11 (ix2 (0 : Fin 1) q)) (((cfg0.win 6).blk t).view.emb j)
  refine affine_eq_of_row _ _ _ _ _ _ j _ ?_ ?_ ?_ ?_
  · funext q
    show V c main_v11 (((cfg0.win 2).blk t).view.emb (ix2 (0 : Fin 1) q)) = V c main_v11 (ix2 (0 : Fin 1) q)
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * q.val = q.val; omega
  · funext y
    show V c main_v5 (((cfg0.win 1).blk t).view.emb y) = V c main_v5 y
    refine congrArg _ (funext fun a => Fin.ext ?_)
    match a with
    | ⟨0, _⟩ => show win0_1.index t (0 : Fin 2) * 1024 + 1 * (y 0).val = (y 0).val; omega
    | ⟨1, _⟩ => show win0_1.index t (1 : Fin 2) * 1024 + 1 * (y 1).val = (y 1).val; omega
  · show (j 1).val = win0_6.index t (1 : Fin 2) * 1024 + 1 * (j 1).val
    omega
  · intro k
    show V c main_v13 (((cfg0.win 0).blk t).view.emb (ix2 (j 0) k)) = V c main_v13 (ix2 ((((cfg0.win 6).blk t).view.emb j) 0) k)
    refine congrArg _ (funext fun a => Fin.ext ?_)
    match a with
    | ⟨0, _⟩ => show win0_0.index t (0 : Fin 2) * 512 + 1 * (j 0).val = win0_6.index t (0 : Fin 2) * 512 + 1 * (j 0).val; omega
    | ⟨1, _⟩ => show win0_0.index t (1 : Fin 2) * 1024 + 1 * k.val = k.val; omega

/-- What point `t` writes back to the value projection's array is block `t` of `x · W + b` of the arrays the call finds. -/
theorem flushed7_eq (c : Dev nD) (t : Fin cfg0.N) :
    (dat0 V c).flushed 7 t = ((cfg0.win 7).blk t).view.read (Elt Ideal) (kvOut (V c main_v14) (V c main_v7) (V c main_v12)) := by
  show (cfg0.win 7).cut (grid0.coords t) ((dat0 V c).after 7 t) = _
  rw [after0_7]
  unfold out0_7
  rw [View.canon_unit_zero hz]
  simp only [View.ld_unit_zero (S := S512x1024) hz, View.ld_unit_zero (S := S1024x1024) hz, View.ld_unit_zero (S := S1x1024) hz]
  rw [pay2_eq]
  obtain ⟨e00, e01, e10, e11, e20, e21, e30, e31, e40, e41, e50, e51, e60, e61, e70, e71⟩ := idx_facts t
  funext j
  show affine (iblk0 V c 3 t) (iblk0 V c 4 t) (fun q => iblk0 V c 5 t (ix2 (0 : Fin 1) q)) j
    = affine (V c main_v14) (V c main_v7) (fun q => V c main_v12 (ix2 (0 : Fin 1) q)) (((cfg0.win 7).blk t).view.emb j)
  refine affine_eq_of_row _ _ _ _ _ _ j _ ?_ ?_ ?_ ?_
  · funext q
    show V c main_v12 (((cfg0.win 5).blk t).view.emb (ix2 (0 : Fin 1) q)) = V c main_v12 (ix2 (0 : Fin 1) q)
    refine congrArg _ (funext fun a => Fin.ext ?_)
    match a with
    | ⟨0, _⟩ => show win0_5.index t (0 : Fin 2) * 1 + 1 * 0 = 0; omega
    | ⟨1, _⟩ => show win0_5.index t (1 : Fin 2) * 1024 + 1 * q.val = q.val; omega
  · funext y
    show V c main_v7 (((cfg0.win 4).blk t).view.emb y) = V c main_v7 y
    refine congrArg _ (funext fun a => Fin.ext ?_)
    match a with
    | ⟨0, _⟩ => show win0_4.index t (0 : Fin 2) * 1024 + 1 * (y 0).val = (y 0).val; omega
    | ⟨1, _⟩ => show win0_4.index t (1 : Fin 2) * 1024 + 1 * (y 1).val = (y 1).val; omega
  · show (j 1).val = win0_7.index t (1 : Fin 2) * 1024 + 1 * (j 1).val
    omega
  · intro k
    show V c main_v14 (((cfg0.win 3).blk t).view.emb (ix2 (j 0) k)) = V c main_v14 (ix2 ((((cfg0.win 7).blk t).view.emb j) 0) k)
    refine congrArg _ (funext fun a => Fin.ext ?_)
    match a with
    | ⟨0, _⟩ => show win0_3.index t (0 : Fin 2) * 512 + 1 * (j 0).val = win0_7.index t (0 : Fin 2) * 512 + 1 * (j 0).val; omega
    | ⟨1, _⟩ => show win0_3.index t (1 : Fin 2) * 1024 + 1 * k.val = k.val; omega

/-- An index is in point `t`'s block of window 6 iff each coordinate is in the block's range on its axis. -/
theorem mem_blk6 (t : Fin cfg0.N) (i : S16384x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v15_0).slice (win0_6.rect t)).set ↔ _
  rw [View.set_slice_whole, Rect.mem_set_unit]
  exact Iff.rfl

/-- Row `r` of the array lies in the block of point `r / 512`: the 32 blocks tile the 16384 rows. -/
theorem cover6 (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  have hlt : (i 0).val / 512 < cfg0.N := by show (i 0).val / 512 < grid0.N; rw [N_0]; omega
  refine ⟨⟨(i 0).val / 512, hlt⟩, flush0_6 _, ?_⟩
  rw [mem_blk6]
  obtain ⟨e00, e01, e10, e11, e20, e21, e30, e31, e40, e41, e50, e51, e60, e61, e70, e71⟩ := idx_facts ⟨(i 0).val / 512, hlt⟩
  intro a
  match a with
  | ⟨0, _⟩ =>
    show win0_6.index ⟨(i 0).val / 512, hlt⟩ (0 : Fin 2) * 512 ≤ (i 0).val ∧ (i 0).val < win0_6.index ⟨(i 0).val / 512, hlt⟩ (0 : Fin 2) * 512 + 512
    rw [e60]
    show (i 0).val / 512 * 512 ≤ (i 0).val ∧ (i 0).val < (i 0).val / 512 * 512 + 512
    omega
  | ⟨1, _⟩ =>
    show win0_6.index ⟨(i 0).val / 512, hlt⟩ (1 : Fin 2) * 1024 ≤ (i 1).val ∧ (i 1).val < win0_6.index ⟨(i 0).val / 512, hlt⟩ (1 : Fin 2) * 1024 + 1024
    omega

/-- An index is in point `t`'s block of window 7 iff each coordinate is in the block's range on its axis. -/
theorem mem_blk7 (t : Fin cfg0.N) (i : S16384x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v15_1).slice (win0_7.rect t)).set ↔ _
  rw [View.set_slice_whole, Rect.mem_set_unit]
  exact Iff.rfl

/-- Row `r` of the array lies in the block of point `r / 512`: the 32 blocks tile the 16384 rows. -/
theorem cover7 (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  have hlt : (i 0).val / 512 < cfg0.N := by show (i 0).val / 512 < grid0.N; rw [N_0]; omega
  refine ⟨⟨(i 0).val / 512, hlt⟩, flush0_7 _, ?_⟩
  rw [mem_blk7]
  obtain ⟨e00, e01, e10, e11, e20, e21, e30, e31, e40, e41, e50, e51, e60, e61, e70, e71⟩ := idx_facts ⟨(i 0).val / 512, hlt⟩
  intro a
  match a with
  | ⟨0, _⟩ =>
    show win0_7.index ⟨(i 0).val / 512, hlt⟩ (0 : Fin 2) * 512 ≤ (i 0).val ∧ (i 0).val < win0_7.index ⟨(i 0).val / 512, hlt⟩ (0 : Fin 2) * 512 + 512
    rw [e70]
    show (i 0).val / 512 * 512 ≤ (i 0).val ∧ (i 0).val < (i 0).val / 512 * 512 + 512
    omega
  | ⟨1, _⟩ =>
    show win0_7.index ⟨(i 0).val / 512, hlt⟩ (1 : Fin 2) * 1024 ≤ (i 1).val ∧ (i 1).val < win0_7.index ⟨(i 0).val / 512, hlt⟩ (1 : Fin 2) * 1024 + 1024
    omega

/-- After the call the key projection's array holds `x · W + b` of the arrays the call found, over all the rows. -/
theorem final6 (c : Dev nD) : (dat0 V c).arrAt 6 cfg0.N = kvOut (V c main_v13) (V c main_v5) (V c main_v11) :=
  (dat0 V c).arrAt_eq_of_cover 6 _ (fun t _ => flushed6_eq V c t) cover6

/-- And the value projection's array likewise. -/
theorem final7 (c : Dev nD) : (dat0 V c).arrAt 7 cfg0.N = kvOut (V c main_v14) (V c main_v7) (V c main_v12) :=
  (dat0 V c).arrAt_eq_of_cover 7 _ (fun t _ => flushed7_eq V c t) cover7

end Cert.KernelIdeal.KvValue

end
-- ==== Proof.LibAttention.lean ====
/-
  General lemmas: single-head scaled dot-product attention over the extended reals, one query row at a time, at any sizes. None mentions a program.

  A row `x` goes through a linear layer whose weight matrix holds one row per output feature: `lin x W b d = (∑ e, x e · W (d, e)) + b d`.
  The query row's scores against the key rows are `score q K k = ∑ d, q d · K k d`; the row's output is the softmax of its scores
  (shifted by their maximum) laid against the value rows: `softAttn s V h = ∑ k, (exp (s k − max s) / ∑ k', exp (s k' − max s)) · V k h`.

  Two arrangements of the softmax scale `c` are stated: the scores multiplied by `c` after the contraction (`attnPost`), and the scale folded
  into the query layer's weights and bias before it (`attnPre`: `linScaled`). Where every entry is a real number the two score rows agree,
  since `∑ d, ((∑ e, x e · (W (d, e) · c)) + b d · c) · K k d = (∑ d, ((∑ e, x e · W (d, e)) + b d) · K k d) · c` by distributivity — the one
  law used here that fails at infinities, which is why the entries are taken finite. A third spelling (`qrow`, `attnRow`) reads the query
  weights transposed and the bias as a one-row array, both already scaled: `qrow_eq_linScaled` identifies it with `linScaled`.
-/
import Idealize.ShloMosaic.Lib.ValueIdx
import Idealize.ShloMosaic.PureOps.Ideal

noncomputable section

namespace Cert.AttnSpec

open Idealize.ShloMosaic Idealize.ShloMosaic.ValueIdx

/-- One row through a linear layer, the weights one row per output feature. -/
def lin {D E : ℕ} (x : Fin E → EReal) (W : (⟨2, ![D, E]⟩ : Shape).Idx → EReal) (b : (⟨1, ![D]⟩ : Shape).Idx → EReal) : Fin D → EReal :=
  fun d => (∑ e : Fin E, x e * W (ix2 d e)) + b (ix1 d)

/-- The same layer with every weight and the bias multiplied by `c` beforehand. -/
def linScaled {D E : ℕ} (c : EReal) (x : Fin E → EReal) (W : (⟨2, ![D, E]⟩ : Shape).Idx → EReal) (b : (⟨1, ![D]⟩ : Shape).Idx → EReal) :
    Fin D → EReal :=
  fun d => (∑ e : Fin E, x e * (W (ix2 d e) * c)) + b (ix1 d) * c

/-- A query row's scores against the key rows. -/
def score {D L : ℕ} (q : Fin D → EReal) (K : Fin L → Fin D → EReal) : Fin L → EReal := fun k => ∑ d : Fin D, q d * K k d

/-- The softmax of a score row (shifted by its maximum) laid against the value rows. -/
def softAttn {L H : ℕ} (s : Fin L → EReal) (V : Fin L → Fin H → EReal) : Fin H → EReal :=
  fun h => ∑ k : Fin L,
    Ideal.div (Ideal.exp (s k - (Finset.univ : Finset (Fin L)).fold max ⊥ s))
      (∑ k' : Fin L, Ideal.exp (s k' - (Finset.univ : Finset (Fin L)).fold max ⊥ s)) * V k h

/-- Row `(n, s)` of a rank-three array. -/
def row3 {B S E : ℕ} (X : (⟨3, ![B, S, E]⟩ : Shape).Idx → EReal) (n : Fin B) (s : Fin S) : Fin E → EReal := fun e => X (ix3 n s e)

/-- Attention with the scale applied to the scores. -/
def attnPost {B S L D E H : ℕ} (c : EReal) (X : (⟨3, ![B, S, E]⟩ : Shape).Idx → EReal) (Xk Xv : (⟨3, ![B, L, E]⟩ : Shape).Idx → EReal)
    (Wq Wk : (⟨2, ![D, E]⟩ : Shape).Idx → EReal) (Wv : (⟨2, ![H, E]⟩ : Shape).Idx → EReal)
    (bq bk : (⟨1, ![D]⟩ : Shape).Idx → EReal) (bv : (⟨1, ![H]⟩ : Shape).Idx → EReal) (n : Fin B) (s : Fin S) : Fin H → EReal :=
  softAttn (fun k => score (lin (row3 X n s) Wq bq) (fun k' => lin (row3 Xk n k') Wk bk) k * c) (fun k' => lin (row3 Xv n k') Wv bv)

/-- Attention with the scale folded into the query layer. -/
def attnPre {B S L D E H : ℕ} (c : EReal) (X : (⟨3, ![B, S, E]⟩ : Shape).Idx → EReal) (Xk Xv : (⟨3, ![B, L, E]⟩ : Shape).Idx → EReal)
    (Wq Wk : (⟨2, ![D, E]⟩ : Shape).Idx → EReal) (Wv : (⟨2, ![H, E]⟩ : Shape).Idx → EReal)
    (bq bk : (⟨1, ![D]⟩ : Shape).Idx → EReal) (bv : (⟨1, ![H]⟩ : Shape).Idx → EReal) (n : Fin B) (s : Fin S) : Fin H → EReal :=
  softAttn (score (linScaled c (row3 X n s) Wq bq) (fun k' => lin (row3 Xk n k') Wk bk)) (fun k' => lin (row3 Xv n k') Wv bv)

/-- The coercion of a finite real sum is the sum of the coercions. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A layer of real entries has real entries. -/
theorem lin_coe {D E : ℕ} (x : Fin E → ℝ) (W : (⟨2, ![D, E]⟩ : Shape).Idx → ℝ) (b : (⟨1, ![D]⟩ : Shape).Idx → ℝ) :
    lin (fun e => (x e : EReal)) (fun i => (W i : EReal)) (fun i => (b i : EReal))
      = fun d => (((∑ e : Fin E, x e * W (ix2 d e)) + b (ix1 d) : ℝ) : EReal) := by
  funext d
  show (∑ e : Fin E, (x e : EReal) * (W (ix2 d e) : EReal)) + (b (ix1 d) : EReal) = _
  rw [EReal.coe_add, coe_sum]
  simp only [EReal.coe_mul]

/-- With real entries throughout, folding the scale into the query layer gives the scores times the scale. -/
theorem score_linScaled {D E L : ℕ} (c : ℝ) (x : Fin E → ℝ) (W : (⟨2, ![D, E]⟩ : Shape).Idx → ℝ) (b : (⟨1, ![D]⟩ : Shape).Idx → ℝ)
    (K : Fin L → Fin D → ℝ) (k : Fin L) :
    score (linScaled (c : EReal) (fun e => (x e : EReal)) (fun i => (W i : EReal)) (fun i => (b i : EReal))) (fun k d => (K k d : EReal)) k
      = score (lin (fun e => (x e : EReal)) (fun i => (W i : EReal)) (fun i => (b i : EReal))) (fun k d => (K k d : EReal)) k * (c : EReal) := by
  have hreal : (∑ d : Fin D, ((∑ e : Fin E, x e * (W (ix2 d e) * c)) + b (ix1 d) * c) * K k d)
      = (∑ d : Fin D, ((∑ e : Fin E, x e * W (ix2 d e)) + b (ix1 d)) * K k d) * c := by
    rw [Finset.sum_mul]
    refine Finset.sum_congr rfl fun d _ => ?_
    have h1 : (∑ e : Fin E, x e * (W (ix2 d e) * c)) = (∑ e : Fin E, x e * W (ix2 d e)) * c := by
      rw [Finset.sum_mul]
      exact Finset.sum_congr rfl fun e _ => by ring
    rw [h1]; ring
  have hl : score (linScaled (c : EReal) (fun e => (x e : EReal)) (fun i => (W i : EReal)) (fun i => (b i : EReal))) (fun k d => (K k d : EReal)) k
      = ((∑ d : Fin D, ((∑ e : Fin E, x e * (W (ix2 d e) * c)) + b (ix1 d) * c) * K k d : ℝ) : EReal) := by
    show (∑ d : Fin D, ((∑ e : Fin E, (x e : EReal) * ((W (ix2 d e) : EReal) * (c : EReal))) + (b (ix1 d) : EReal) * (c : EReal)) * (K k d : EReal)) = _
    rw [coe_sum]
    refine Finset.sum_congr rfl fun d _ => ?_
    rw [EReal.coe_mul, EReal.coe_add, coe_sum, EReal.coe_mul]
    simp only [EReal.coe_mul]
  have hr : score (lin (fun e => (x e : EReal)) (fun i => (W i : EReal)) (fun i => (b i : EReal))) (fun k d => (K k d : EReal)) k
      = ((∑ d : Fin D, ((∑ e : Fin E, x e * W (ix2 d e)) + b (ix1 d)) * K k d : ℝ) : EReal) := by
    show (∑ d : Fin D, ((∑ e : Fin E, (x e : EReal) * (W (ix2 d e) : EReal)) + (b (ix1 d) : EReal)) * (K k d : EReal)) = _
    rw [coe_sum]
    refine Finset.sum_congr rfl fun d _ => ?_
    rw [EReal.coe_mul, EReal.coe_add, coe_sum]
    simp only [EReal.coe_mul]
  rw [hl, hr, hreal, EReal.coe_mul]

/-- So with real entries throughout the two arrangements of the scale give the same attention. -/
theorem attnPre_eq_attnPost {B S L D E H : ℕ} (c : ℝ) (X : (⟨3, ![B, S, E]⟩ : Shape).Idx → ℝ) (Xk Xv : (⟨3, ![B, L, E]⟩ : Shape).Idx → ℝ)
    (Wq Wk : (⟨2, ![D, E]⟩ : Shape).Idx → ℝ) (Wv : (⟨2, ![H, E]⟩ : Shape).Idx → ℝ)
    (bq bk : (⟨1, ![D]⟩ : Shape).Idx → ℝ) (bv : (⟨1, ![H]⟩ : Shape).Idx → ℝ) (n : Fin B) (s : Fin S) :
    attnPre (c : EReal) (fun i => (X i : EReal)) (fun i => (Xk i : EReal)) (fun i => (Xv i : EReal)) (fun i => (Wq i : EReal))
        (fun i => (Wk i : EReal)) (fun i => (Wv i : EReal)) (fun i => (bq i : EReal)) (fun i => (bk i : EReal)) (fun i => (bv i : EReal)) n s
      = attnPost (c : EReal) (fun i => (X i : EReal)) (fun i => (Xk i : EReal)) (fun i => (Xv i : EReal)) (fun i => (Wq i : EReal))
        (fun i => (Wk i : EReal)) (fun i => (Wv i : EReal)) (fun i => (bq i : EReal)) (fun i => (bk i : EReal)) (fun i => (bv i : EReal)) n s := by
  unfold attnPre attnPost
  refine congrArg (fun sc => softAttn sc _) (funext fun k => ?_)
  have hK : (fun k' : Fin L => lin (row3 (fun i => (Xk i : EReal)) n k') (fun i => (Wk i : EReal)) (fun i => (bk i : EReal)))
      = fun k' d => (((∑ e : Fin E, Xk (ix3 n k' e) * Wk (ix2 d e)) + bk (ix1 d) : ℝ) : EReal) :=
    funext fun k' => lin_coe (fun e => Xk (ix3 n k' e)) Wk bk
  rw [hK]
  exact score_linScaled c (fun e => X (ix3 n s e)) Wq bq _ k

/-! ## The arrangement a fused kernel computes: transposed query weights, a one-row bias, the scale already folded in -/

/-- One row through a linear layer whose weights hold one COLUMN per output feature and whose bias is a one-row array. -/
def qrow {D E : ℕ} (x : Fin E → EReal) (Wt : (⟨2, ![E, D]⟩ : Shape).Idx → EReal) (b : (⟨2, ![1, D]⟩ : Shape).Idx → EReal) : Fin D → EReal :=
  fun d => (∑ e : Fin E, x e * Wt (ix2 e d)) + b (ix2 (0 : Fin 1) d)

/-- A query row's attention output from the transposed query weights, the key rows and the value rows. -/
def attnRow {D E L H : ℕ} (x : Fin E → EReal) (Wt : (⟨2, ![E, D]⟩ : Shape).Idx → EReal) (b : (⟨2, ![1, D]⟩ : Shape).Idx → EReal)
    (K : Fin L → Fin D → EReal) (V : Fin L → Fin H → EReal) : Fin H → EReal :=
  softAttn (score (qrow x Wt b) K) V

/-- With the weights `W (d, e) · c` read transposed and the bias `b d · c` read as a row, `qrow` is the scaled layer. -/
theorem qrow_eq_linScaled {D E : ℕ} (c : EReal) (x : Fin E → EReal) (W : (⟨2, ![D, E]⟩ : Shape).Idx → EReal) (b : (⟨1, ![D]⟩ : Shape).Idx → EReal)
    (Wt : (⟨2, ![E, D]⟩ : Shape).Idx → EReal) (b2 : (⟨2, ![1, D]⟩ : Shape).Idx → EReal)
    (hW : ∀ (e : Fin E) (d : Fin D), Wt (ix2 e d) = W (ix2 d e) * c) (hb : ∀ d : Fin D, b2 (ix2 (0 : Fin 1) d) = b (ix1 d) * c) :
    qrow x Wt b2 = linScaled c x W b := by
  funext d
  show (∑ e : Fin E, x e * Wt (ix2 e d)) + b2 (ix2 (0 : Fin 1) d) = (∑ e : Fin E, x e * (W (ix2 d e) * c)) + b (ix1 d) * c
  rw [hb d]
  exact congrArg (· + b (ix1 d) * c) (Finset.sum_congr rfl fun e _ => by rw [hW e d])

end Cert.AttnSpec

end
-- ==== Proof.Consts.lean ====
/-
  The float constants the two programs spell, as the extended reals their patterns denote: the softmax scale `2⁻⁵` written as a
  literal, the same scale written as `1 / √1024`, zero, and `−∞` (the starting value of a running maximum).
-/
import Idealize.ShloMosaic.PureOps.Ideal

noncomputable section

namespace Cert.AttnConsts

open Idealize.ShloMosaic

/-- The scale as the literal `0.03125`. -/
def scaleK : EReal := Ideal.ofBits .f32 0x3D000000#32

/-- The scale as one over the square root of `1024`. -/
def scaleR : EReal := Ideal.div (Ideal.ofBits .f32 0x3F800000#32) (Ideal.sqrt (Ideal.ofBits .f32 0x44800000#32))

theorem ofBits_1024 : Ideal.ofBits .f32 0x44800000#32 = ((1024 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_negInf : Ideal.ofBits .f32 0xFF800000#32 = ⊥ := by
  simp [Ideal.ofBits, Ideal.ieee]

theorem ofBits_zero : Ideal.ofBits .f32 0x00000000#32 = 0 := by
  simp [Ideal.ofBits, Ideal.ieee]

/-- `0.03125 = 1 / 32`. -/
theorem scaleK_eq : scaleK = (((1 : ℝ) / 32 : ℝ) : EReal) := by
  unfold scaleK
  simp [Ideal.ofBits, Ideal.ieee, -EReal.coe_mul]; norm_num

/-- `√1024 = 32`, so `1 / √1024 = 1 / 32`. -/
theorem scaleR_eq : scaleR = (((1 : ℝ) / 32 : ℝ) : EReal) := by
  unfold scaleR
  rw [ofBits_1024, ofBits_one]
  have hs : Real.sqrt 1024 = 32 := by
    rw [show (1024 : ℝ) = 32 ^ 2 by norm_num]
    exact Real.sqrt_sq (by norm_num)
  have h1 : Ideal.sqrt ((1024 : ℝ) : EReal) = ((32 : ℝ) : EReal) := by
    rw [Ideal.sqrt_coe, if_neg (by norm_num), hs]
  rw [h1, Ideal.div_coe (by norm_num : (32 : ℝ) ≠ 0)]
  rw [← EReal.coe_mul]; norm_num

end Cert.AttnConsts

end
-- ==== Proof.AttnBody.lean ====
/-
  The attention call's body, read at an index. Over one block of 256 query rows the body forms the query rows `x · Wt + b`, their
  scores against the 2048 key rows of the batch, the softmax of each score row (shifted by the row's maximum), and its product with
  the value rows. Stage by stage, at explicit coordinates: the stored entry `(0, p, h)` is the attention output of query row `p`.
-/
import proofs.«165551_j90838558310712_2_alg».proof.Proof.Gen.KernelIdeal.Skeleton
import proofs.«165551_j90838558310712_2_alg».proof.Proof.LibTransposed
import proofs.«165551_j90838558310712_2_alg».proof.Proof.LibAttention
import proofs.«165551_j90838558310712_2_alg».proof.Proof.Consts
import Idealize.ShloMosaic.Lib.ValueLayout

noncomputable section

namespace Cert.KernelIdeal.AttnBody

open Cert.KernelIdeal Cert.KernelIdeal.Gen Idealize.ShloMosaic Idealize.ShloMosaic.ValueIdx
open Cert.LayoutLib Cert.DenseLib Cert.RowBlocks Cert.TransposedLib Cert.AttnSpec Cert.AttnConsts

/-! ## The stages -/

/-- The query rows of the block. -/
def qv (x0 : FVec Ideal S1x256x1024 .f32) (x1 : FVec Ideal S1024x1024 .bf16) (x2 : FVec Ideal S1x1024 .f32) : FVec Ideal S256x1024 .f32 :=
  addf (matmul dot_S256x1024_S1024x1024_S256x1024_1_0_0_1_n_n none
      (truncf .bf16 (shapeCast S256x1024 x0 shapeCasts_S1x256x1024_S256x1024) bitsLt_bf16_f32)
      (shapeCast S1024x1024 x1 shapeCasts_S1024x1024_S1024x1024) (constant S256x1024 .f32 0x00000000#32))
    (broadcastTo S256x1024 (shapeCast S1x1024 x2 shapeCasts_S1x1024_S1x1024) broadcasts_S1x1024_S256x1024)

/-- The scores of the block's query rows against the key rows. -/
def sv (q : FVec Ideal S256x1024 .f32) (x3 : FVec Ideal S1x2048x1024 .bf16) : FVec Ideal S256x2048 .f32 :=
  matmul dot_S256x1024_S2048x1024_S256x2048_1_1_0_0_n_n none (truncf .bf16 q bitsLt_bf16_f32)
    (shapeCast S2048x1024 x3 shapeCasts_S1x2048x1024_S2048x1024) (constant S256x2048 .f32 0x00000000#32)

/-- Each row's maximum. -/
def rmax (s : FVec Ideal S256x2048 .f32) : FVec Ideal S256 .f32 :=
  multiReduction .maximumf [1] S256 s 0xFF800000#32 reduces_S256x2048_S256 (.inl rfl) rfl

/-- Each row's sum. -/
def rsum (e : FVec Ideal S256x2048 .f32) : FVec Ideal S256 .f32 :=
  multiReduction .add [1] S256 e 0x00000000#32 reduces_S256x2048_S256 (.inl rfl) rfl

/-- A per-row value laid along its row. -/
def col (v : FVec Ideal S256 .f32) : FVec Ideal S256x2048 .f32 :=
  broadcastTo S256x2048 (shapeCast S256x1 v shapeCasts_S256_S256x1) broadcasts_S256x1_S256x2048

/-- The softmax of each row. -/
def av (s : FVec Ideal S256x2048 .f32) : FVec Ideal S256x2048 .f32 :=
  divf (exp (subf s (col (rmax s)))) (col (rsum (exp (subf s (col (rmax s))))))

/-- The weights against the value rows, as the stored block. -/
def ov (a : FVec Ideal S256x2048 .f32) (x4 : FVec Ideal S1x2048x1024 .bf16) : FVec Ideal S1x256x1024 .f32 :=
  shapeCast S1x256x1024
    (matmul dot_S256x2048_S2048x1024_S256x1024_1_0_0_1_n_n none (truncf .bf16 a bitsLt_bf16_f32)
      (shapeCast S2048x1024 x4 shapeCasts_S1x2048x1024_S2048x1024) (constant S256x1024 .f32 0x00000000#32))
    shapeCasts_S256x1024_S1x256x1024

/-- The body's stored value is the composition of the stages. -/
theorem pay_eq (x0 : FVec Ideal S1x256x1024 .f32) (x1 : FVec Ideal S1024x1024 .bf16) (x2 : FVec Ideal S1x1024 .f32)
    (x3 x4 : FVec Ideal S1x2048x1024 .bf16) :
    k1_pay1 (F := Ideal) x0 x1 x2 x3 x4 = ov (av (sv (qv x0 x1 x2) x3)) x4 := rfl

/-! ## Each stage at an index -/

theorem qv_apply (x0 : FVec Ideal S1x256x1024 .f32) (x1 : FVec Ideal S1024x1024 .bf16) (x2 : FVec Ideal S1x1024 .f32)
    (p : Fin 256) (d : Fin 1024) : qv x0 x1 x2 (ix2 p d) = qrow (fun e => x0 (ix3 (0 : Fin 1) p e)) x1 x2 d := by
  unfold qv
  rw [shapeCast_self x1, shapeCast_self x2]
  show (matmul dot_S256x1024_S1024x1024_S256x1024_1_0_0_1_n_n none (shapeCast S256x1024 x0 shapeCasts_S1x256x1024_S256x1024) x1
      (constant S256x1024 .f32 0x00000000#32)) (ix2 p d) + (broadcastTo S256x1024 x2 broadcasts_S1x1024_S256x1024) (ix2 p d) = _
  rw [matmul_eq_mm dot_S256x1024_S1024x1024_S256x1024_1_0_0_1_n_n rfl, mm_apply, broadcastTo_1b_ab_apply]
  refine congrArg (· + x2 (ix2 (0 : Fin 1) d)) (Finset.sum_congr rfl fun e _ => ?_)
  rw [shapeCast_1ab_ab_apply]

theorem sv_apply (q : FVec Ideal S256x1024 .f32) (x3 : FVec Ideal S1x2048x1024 .bf16) (p : Fin 256) (k : Fin 2048) :
    sv q x3 (ix2 p k) = score (fun d => q (ix2 p d)) (fun k' d => x3 (ix3 (0 : Fin 1) k' d)) k := by
  unfold sv
  show (matmul dot_S256x1024_S2048x1024_S256x2048_1_1_0_0_n_n none q (shapeCast S2048x1024 x3 shapeCasts_S1x2048x1024_S2048x1024)
      (constant S256x2048 .f32 0x00000000#32)) (ix2 p k) = _
  rw [matmul_transposedRhs_eq_mm dot_S256x1024_S2048x1024_S256x2048_1_1_0_0_n_n rfl, mm_apply]
  refine Finset.sum_congr rfl fun d _ => ?_
  rw [tr_apply, shapeCast_1ab_ab_apply]

theorem col_apply (v : FVec Ideal S256 .f32) (p : Fin 256) (k : Fin 2048) : col v (ix2 p k) = v (ix1 p) := by
  unfold col
  exact (broadcastTo_col_apply _ broadcasts_S256x1_S256x2048 p k).trans (shapeCast_col_apply v shapeCasts_S256_S256x1 p (0 : Fin 1))

theorem rmax_apply (s : FVec Ideal S256x2048 .f32) (p : Fin 256) :
    rmax s (ix1 p) = (Finset.univ : Finset (Fin 2048)).fold max ⊥ (fun k => s (ix2 p k)) := by
  unfold rmax
  refine (Ideal.multiReduction_maximumf_single s 0xFF800000#32 reduces_S256x2048_S256 (.inl rfl) rfl (ix1 p)).trans ?_
  have hf : (s ∘ reduces_S256x2048_S256.lift (ix1 p)) = fun k : Fin 2048 => s (ix2 p k) :=
    funext fun k => congrArg s (lift_row reduces_S256x2048_S256 p k)
  have hb : (FloatOps.ofBits (F := Ideal) .f32 0xFF800000#32 : EReal) = ⊥ := ofBits_negInf
  rw [hb]
  exact congrArg (fun f => Finset.fold max (⊥ : EReal) f (Finset.univ : Finset (Fin 2048))) hf

theorem rsum_apply (e : FVec Ideal S256x2048 .f32) (p : Fin 256) : rsum e (ix1 p) = ∑ k : Fin 2048, e (ix2 p k) := by
  unfold rsum
  refine (Ideal.multiReduction_add_single e 0x00000000#32 reduces_S256x2048_S256 (.inl rfl) rfl (ix1 p)).trans ?_
  exact Finset.sum_congr rfl fun k _ => congrArg e (lift_row reduces_S256x2048_S256 p k)

theorem av_apply (s : FVec Ideal S256x2048 .f32) (p : Fin 256) (k : Fin 2048) :
    av s (ix2 p k)
      = Ideal.div (Ideal.exp (s (ix2 p k) - (Finset.univ : Finset (Fin 2048)).fold max ⊥ (fun k' => s (ix2 p k'))))
          (∑ k' : Fin 2048, Ideal.exp (s (ix2 p k') - (Finset.univ : Finset (Fin 2048)).fold max ⊥ (fun k'' => s (ix2 p k'')))) := by
  unfold av
  show Ideal.div (Ideal.exp (s (ix2 p k) - col (rmax s) (ix2 p k))) (col (rsum (exp (subf s (col (rmax s))))) (ix2 p k)) = _
  rw [col_apply, col_apply, rsum_apply, rmax_apply]
  refine congrArg _ (Finset.sum_congr rfl fun k' _ => ?_)
  show Ideal.exp (s (ix2 p k') - col (rmax s) (ix2 p k')) = _
  rw [col_apply, rmax_apply]

theorem ov_apply (a : FVec Ideal S256x2048 .f32) (x4 : FVec Ideal S1x2048x1024 .bf16) (u : Fin 1) (p : Fin 256) (h : Fin 1024) :
    ov a x4 (ix3 u p h) = ∑ k : Fin 2048, a (ix2 p k) * x4 (ix3 (0 : Fin 1) k h) := by
  unfold ov
  rw [shapeCast_ab_1ab_apply]
  show (matmul dot_S256x2048_S2048x1024_S256x1024_1_0_0_1_n_n none a (shapeCast S2048x1024 x4 shapeCasts_S1x2048x1024_S2048x1024)
      (constant S256x1024 .f32 0x00000000#32)) (ix2 p h) = _
  rw [matmul_eq_mm dot_S256x2048_S2048x1024_S256x1024_1_0_0_1_n_n rfl, mm_apply]
  refine Finset.sum_congr rfl fun k _ => ?_
  rw [shapeCast_1ab_ab_apply]

/-! ## The stored entry -/

/-- Entry `(0, p, h)` of the stored block is the attention output of query row `p` at feature `h`. -/
theorem pay_apply (x0 : FVec Ideal S1x256x1024 .f32) (x1 : FVec Ideal S1024x1024 .bf16) (x2 : FVec Ideal S1x1024 .f32)
    (x3 x4 : FVec Ideal S1x2048x1024 .bf16) (u : Fin 1) (p : Fin 256) (h : Fin 1024) :
    k1_pay1 (F := Ideal) x0 x1 x2 x3 x4 (ix3 u p h)
      = attnRow (fun e => x0 (ix3 (0 : Fin 1) p e)) x1 x2 (fun k d => x3 (ix3 (0 : Fin 1) k d)) (fun k h' => x4 (ix3 (0 : Fin 1) k h')) h := by
  rw [pay_eq, ov_apply]
  have hs : ∀ k : Fin 2048, sv (qv x0 x1 x2) x3 (ix2 p k)
      = score (qrow (fun e => x0 (ix3 (0 : Fin 1) p e)) x1 x2) (fun k' d => x3 (ix3 (0 : Fin 1) k' d)) k := fun k => by
    rw [sv_apply]
    exact congrArg (fun q => score q (fun k' d => x3 (ix3 (0 : Fin 1) k' d)) k) (funext fun d => qv_apply x0 x1 x2 p d)
  unfold attnRow softAttn
  refine Finset.sum_congr rfl fun k _ => ?_
  rw [av_apply]
  simp only [hs]

end Cert.KernelIdeal.AttnBody

end
-- ==== Proof.AttnValue.lean ====
/-
  The attention call as a whole-array function. At grid point `(n, j)` the body reads query rows `256·j … 256·j + 255` of batch `n`,
  the whole transposed query weights and bias row, and all 2048 projected key and value rows of batch `n`, and stores the attention output
  of those query rows. Entry `(n, s, h)` of the result therefore depends on query row `(n, s)` and on batch `n`'s keys and values only:
  the 64 blocks written back are blocks of ONE function of the arrays the call finds, and they tile the result array.
-/
import proofs.«165551_j90838558310712_2_alg».proof.Proof.Gen.KernelIdeal.Frame
import proofs.«165551_j90838558310712_2_alg».proof.Proof.AttnBody
import Idealize.ShloMosaic.Lib.Pipeline.Value

set_option maxRecDepth 16384

noncomputable section

namespace Cert.KernelIdeal.AttnValue

open Cert.KernelIdeal Cert.KernelIdeal.Gen Idealize.ShloMosaic Idealize.ShloMosaic.TcCoe Idealize.SL.Sem Idealize.ShloMosaic.ValueIdx
open Idealize.ShloMosaic.Pipeline (Dat)
open Cert.AttnSpec Cert.KernelIdeal.AttnBody

/-- The attention output of every query row, from the arrays the call finds. -/
abbrev attnOut (Q : S8x2048x1024.Idx → EReal) (Wt : S1024x1024.Idx → EReal) (b : S1x1024.Idx → EReal)
    (K3 V3 : S8x2048x1024.Idx → EReal) : S8x2048x1024.Idx → EReal :=
  fun i => attnRow (fun e => Q (ix3 (n0 := 8) (i 0) (n1 := 2048) (i 1) e)) Wt b
    (fun k d => K3 (ix3 (n0 := 8) (i 0) k d)) (fun k h => V3 (ix3 (n0 := 8) (i 0) k h)) (i 2)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: point `t` is batch `t / 8`, query tile `t % 8`; the key and value windows follow the batch;
    the weight and bias windows stay at block zero. -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val / 8 ∧ win1_3.index t (1 : Fin 3) = 0 ∧ win1_3.index t (2 : Fin 3) = 0
    ∧ win1_4.index t (0 : Fin 3) = t.val / 8 ∧ win1_4.index t (1 : Fin 3) = 0 ∧ win1_4.index t (2 : Fin 3) = 0
    ∧ win1_5.index t (0 : Fin 3) = t.val / 8 ∧ win1_5.index t (1 : Fin 3) = t.val % 8 ∧ win1_5.index t (2 : Fin 3) = 0 :=
  (by decide +kernel : ∀ t : Fin grid1.N, _)

variable (V : (c : Dev nD) → (b : Ref sig .tc) → Buf (Elt Ideal) ((c : Thread nD τ).loc b))

/-- What point `t` writes back is block `t` of the attention output of the arrays the call finds. -/
theorem flushed5_eq (c : Dev nD) (t : Fin cfg1.N) :
    (dat1 V c).flushed 5 t = ((cfg1.win 5).blk t).view.read (Elt Ideal)
      (attnOut (V c main_arg0) (V c main_v3) (V c main_v10) (V c main_v16) (V c main_v17)) := by
  show (cfg1.win 5).cut (grid1.coords t) ((dat1 V c).after 5 t) = _
  rw [after1_5]
  unfold out1_5
  rw [View.canon_unit_zero hz3]
  simp only [View.ld_unit_zero (S := S1x256x1024) hz3, View.ld_unit_zero (S := S1024x1024) hz2, View.ld_unit_zero (S := S1x1024) hz2,
    View.ld_unit_zero (S := S1x2048x1024) hz3]
  obtain ⟨e00, e01, e02, e10, e11, e20, e21, e30, e31, e32, e40, e41, e42, e50, e51, e52⟩ := idx_facts t
  funext j
  obtain ⟨u, p, h, rfl⟩ : ∃ (u : Fin 1) (p : Fin 256) (h : Fin 1024), j = ix3 u p h := ⟨j 0, j 1, j 2, eq_ix3 j⟩
  have hu : u.val = 0 := by omega
  refine (pay_apply (iblk1 V c 0 t) (iblk1 V c 1 t) (iblk1 V c 2 t) (iblk1 V c 3 t) (iblk1 V c 4 t) u p h).trans ?_
  have hq : (fun e : Fin 1024 => iblk1 V c 0 t (ix3 (0 : Fin 1) p e))
      = fun e => V c main_arg0 (ix3 (n0 := 8) ((((cfg1.win 5).blk t).view.emb (ix3 u p h)) 0) (n1 := 2048) ((((cfg1.win 5).blk t).view.emb (ix3 u p h)) 1) e) :=
    funext fun e => by
      show V c main_arg0 (((cfg1.win 0).blk t).view.emb (ix3 (0 : Fin 1) p e)) = _
      refine congrArg _ (funext fun a => Fin.ext ?_)
      match a with
      | ⟨0, _⟩ => show win1_0.index t (0 : Fin 3) * 1 + 1 * 0 = win1_5.index t (0 : Fin 3) * 1 + 1 * u.val; omega
      | ⟨1, _⟩ => show win1_0.index t (1 : Fin 3) * 256 + 1 * p.val = win1_5.index t (1 : Fin 3) * 256 + 1 * p.val; omega
      | ⟨2, _⟩ => show win1_0.index t (2 : Fin 3) * 1024 + 1 * e.val = e.val; omega
  have hw : iblk1 V c 1 t = V c main_v3 := funext fun y => by
    show V c main_v3 (((cfg1.win 1).blk t).view.emb y) = V c main_v3 y
    refine congrArg _ (funext fun a => Fin.ext ?_)
    match a with
    | ⟨0, _⟩ => show win1_1.index t (0 : Fin 2) * 1024 + 1 * (y 0).val = (y 0).val; omega
    | ⟨1, _⟩ => show win1_1.index t (1 : Fin 2) * 1024 + 1 * (y 1).val = (y 1).val; omega
  have hb : iblk1 V c 2 t = V c main_v10 := funext fun y => by
    show V c main_v10 (((cfg1.win 2).blk t).view.emb y) = V c main_v10 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 1024 + 1 * (y 1).val = (y 1).val; omega
  have hk : (fun (k : Fin 2048) (d : Fin 1024) => iblk1 V c 3 t (ix3 (0 : Fin 1) k d))
      = fun k d => V c main_v16 (ix3 (n0 := 8) ((((cfg1.win 5).blk t).view.emb (ix3 u p h)) 0) k d) :=
    funext fun k => funext fun d => by
      show V c main_v16 (((cfg1.win 3).blk t).view.emb (ix3 (0 : Fin 1) k d)) = _
      refine congrArg _ (funext fun a => Fin.ext ?_)
      match a with
      | ⟨0, _⟩ => show win1_3.index t (0 : Fin 3) * 1 + 1 * 0 = win1_5.index t (0 : Fin 3) * 1 + 1 * u.val; omega
      | ⟨1, _⟩ => show win1_3.index t (1 : Fin 3) * 2048 + 1 * k.val = k.val; omega
      | ⟨2, _⟩ => show win1_3.index t (2 : Fin 3) * 1024 + 1 * d.val = d.val; omega
  have hv : (fun (k : Fin 2048) (h' : Fin 1024) => iblk1 V c 4 t (ix3 (0 : Fin 1) k h'))
      = fun k h' => V c main_v17 (ix3 (n0 := 8) ((((cfg1.win 5).blk t).view.emb (ix3 u p h)) 0) k h') :=
    funext fun k => funext fun d => by
      show V c main_v17 (((cfg1.win 4).blk t).view.emb (ix3 (0 : Fin 1) k d)) = _
      refine congrArg _ (funext fun a => Fin.ext ?_)
      match a with
      | ⟨0, _⟩ => show win1_4.index t (0 : Fin 3) * 1 + 1 * 0 = win1_5.index t (0 : Fin 3) * 1 + 1 * u.val; omega
      | ⟨1, _⟩ => show win1_4.index t (1 : Fin 3) * 2048 + 1 * k.val = k.val; omega
      | ⟨2, _⟩ => show win1_4.index t (2 : Fin 3) * 1024 + 1 * d.val = d.val; omega
  have hh : (h : Fin 1024) = ((((cfg1.win 5).blk t).view.emb (ix3 u p h)) 2) := Fin.ext (by
    show h.val = win1_5.index t (2 : Fin 3) * 1024 + 1 * h.val; omega)
  rw [hq, hw, hb, hk, hv]
  exact congrArg _ hh

/-- An index is in point `t`'s block iff each coordinate is in the block's range on its axis. -/
theorem mem_blk5 (t : Fin cfg1.N) (i : S8x2048x1024.Idx) :
    i ∈ ((cfg1.win 5).blk t).view.set ↔ ∀ a : Fin 3, win1_5.index t a * S1x256x1024.size a ≤ (i a).val ∧ (i a).val < win1_5.index t a * S1x256x1024.size a + S1x256x1024.size a := by
  show i ∈ ((View.whole main_v18).slice (win1_5.rect t)).set ↔ _
  rw [View.set_slice_whole, Rect.mem_set_unit]
  exact Iff.rfl

/-- Entry `(n, s, h)` lies in the block of point `8·n + s / 256`: the 64 blocks tile the result array. -/
theorem cover5 (i : S8x2048x1024.Idx) : ∃ t : Fin cfg1.N, (cfg1.win 5).flush t = true ∧ i ∈ ((cfg1.win 5).blk t).view.set := by
  have hi0 : (i 0).val < 8 := (i 0).isLt
  have hi1 : (i 1).val < 2048 := (i 1).isLt
  have hi2 : (i 2).val < 1024 := (i 2).isLt
  have hlt : (i 0).val * 8 + (i 1).val / 256 < cfg1.N := by show (i 0).val * 8 + (i 1).val / 256 < grid1.N; rw [N_1]; omega
  refine ⟨⟨(i 0).val * 8 + (i 1).val / 256, hlt⟩, flush1_5 _, ?_⟩
  rw [mem_blk5]
  obtain ⟨e00, e01, e02, e10, e11, e20, e21, e30, e31, e32, e40, e41, e42, e50, e51, e52⟩ := idx_facts ⟨(i 0).val * 8 + (i 1).val / 256, hlt⟩
  intro a
  match a with
  | ⟨0, _⟩ =>
    show win1_5.index ⟨(i 0).val * 8 + (i 1).val / 256, hlt⟩ (0 : Fin 3) * 1 ≤ (i 0).val
      ∧ (i 0).val < win1_5.index ⟨(i 0).val * 8 + (i 1).val / 256, hlt⟩ (0 : Fin 3) * 1 + 1
    rw [e50]
    show ((i 0).val * 8 + (i 1).val / 256) / 8 * 1 ≤ (i 0).val ∧ (i 0).val < ((i 0).val * 8 + (i 1).val / 256) / 8 * 1 + 1
    omega
  | ⟨1, _⟩ =>
    show win1_5.index ⟨(i 0).val * 8 + (i 1).val / 256, hlt⟩ (1 : Fin 3) * 256 ≤ (i 1).val
      ∧ (i 1).val < win1_5.index ⟨(i 0).val * 8 + (i 1).val / 256, hlt⟩ (1 : Fin 3) * 256 + 256
    rw [e51]
    show ((i 0).val * 8 + (i 1).val / 256) % 8 * 256 ≤ (i 1).val ∧ (i 1).val < ((i 0).val * 8 + (i 1).val / 256) % 8 * 256 + 256
    omega
  | ⟨2, _⟩ =>
    show win1_5.index ⟨(i 0).val * 8 + (i 1).val / 256, hlt⟩ (2 : Fin 3) * 1024 ≤ (i 2).val
      ∧ (i 2).val < win1_5.index ⟨(i 0).val * 8 + (i 1).val / 256, hlt⟩ (2 : Fin 3) * 1024 + 1024
    omega

/-- After the call the result array holds the attention output of the arrays the call found. -/
theorem final5 (c : Dev nD) :
    (dat1 V c).arrAt 5 cfg1.N = attnOut (V c main_arg0) (V c main_v3) (V c main_v10) (V c main_v16) (V c main_v17) :=
  (dat1 V c).arrAt_eq_of_cover 5 _ (fun t _ => flushed5_eq V c t) cover5

end Cert.KernelIdeal.AttnValue

end
-- ==== Proof.Glue.lean ====
/-
  What the two calls find in their operand arrays, read back through the host operations of the run: the key and value embeddings
  flattened to `[16384, 1024]`, the key and value weights transposed, the biases as one-row arrays; then, for the attention call, the
  query embeddings as launched, the query weights multiplied by the scale and transposed, the scaled query bias as a row, and the
  two projections recast to `[8, 2048, 1024]`.
-/
import proofs.«165551_j90838558310712_2_alg».proof.Proof.Gen.KernelIdeal.Frame
import Idealize.ShloMosaic.Lib.StableHlo.Run
import Idealize.ShloMosaic.PureOps.Ideal

set_option maxRecDepth 16384

noncomputable section

namespace Cert.KernelIdeal.Glue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## At the projection call's entry -/

theorem V1_v13 (c : Dev nD) : (V1 m ρ c main_v13 : S16384x1024.Idx → EReal)
    = shapeCast S16384x1024 (m ((c.tc : Thread nD τ).loc main_arg1)) shapeCasts_S8x2048x1024_S16384x1024 := by
  show StableHlo.after (hostOps0 (F := Ideal)) (W0 m ρ c) (Proc.devRef .tc main_v13) = _
  after_results
  all_goals rfl

theorem V1_v14 (c : Dev nD) : (V1 m ρ c main_v14 : S16384x1024.Idx → EReal)
    = shapeCast S16384x1024 (m ((c.tc : Thread nD τ).loc main_arg2)) shapeCasts_S8x2048x1024_S16384x1024 := by
  show StableHlo.after (hostOps0 (F := Ideal)) (W0 m ρ c) (Proc.devRef .tc main_v14) = _
  after_results
  all_goals rfl

theorem V1_v5 (c : Dev nD) : (V1 m ρ c main_v5 : S1024x1024.Idx → EReal)
    = (transpose S1024x1024 [1, 0] (truncf (F := Ideal) .bf16 (m ((c.tc : Thread nD τ).loc main_arg5)) bitsLt_bf16_f32) transposes_S1024x1024_S1024x1024_1_0 : S1024x1024.Idx → EReal) := by
  show StableHlo.after (hostOps0 (F := Ideal)) (W0 m ρ c) (Proc.devRef .tc main_v5) = _
  after_results
  all_goals rfl

theorem V1_v7 (c : Dev nD) : (V1 m ρ c main_v7 : S1024x1024.Idx → EReal)
    = (transpose S1024x1024 [1, 0] (truncf (F := Ideal) .bf16 (m ((c.tc : Thread nD τ).loc main_arg7)) bitsLt_bf16_f32) transposes_S1024x1024_S1024x1024_1_0 : S1024x1024.Idx → EReal) := by
  show StableHlo.after (hostOps0 (F := Ideal)) (W0 m ρ c) (Proc.devRef .tc main_v7) = _
  after_results
  all_goals rfl

theorem V1_v11 (c : Dev nD) : (V1 m ρ c main_v11 : S1x1024.Idx → EReal)
    = shapeCast S1x1024 (m ((c.tc : Thread nD τ).loc main_arg6)) shapeCasts_S1024_S1x1024 := by
  show StableHlo.after (hostOps0 (F := Ideal)) (W0 m ρ c) (Proc.devRef .tc main_v11) = _
  after_results
  all_goals rfl

theorem V1_v12 (c : Dev nD) : (V1 m ρ c main_v12 : S1x1024.Idx → EReal)
    = shapeCast S1x1024 (m ((c.tc : Thread nD τ).loc main_arg8)) shapeCasts_S1024_S1x1024 := by
  show StableHlo.after (hostOps0 (F := Ideal)) (W0 m ρ c) (Proc.devRef .tc main_v12) = _
  after_results
  all_goals rfl

/-! ## At the attention call's entry -/

theorem V3_arg0 (c : Dev nD) : (V3 m ρ c main_arg0 : S8x2048x1024.Idx → EReal) = m ((c.tc : Thread nD τ).loc main_arg0) := by
  show StableHlo.after (hostOps1 (F := Ideal)) (W2 m ρ c) (Proc.devRef .tc main_arg0) = _
  after_results
  rw [W2_of_ne m ρ c main_arg0 (by decide)]
  show StableHlo.after (hostOps0 (F := Ideal)) (W0 m ρ c) (Proc.devRef .tc main_arg0) = _
  after_results
  all_goals rfl

theorem V3_v3 (c : Dev nD) : (V3 m ρ c main_v3 : S1024x1024.Idx → EReal)
    = transpose S1024x1024 [1, 0] (truncf (F := Ideal) .bf16 (mulf (m ((c.tc : Thread nD τ).loc main_arg3))
        (broadcastInDim S1024x1024 ![] bcast_S_S1024x1024 (constant (F := Ideal) S_ .f32 0x3D000000#32))) bitsLt_bf16_f32)
        transposes_S1024x1024_S1024x1024_1_0 := by
  show StableHlo.after (hostOps1 (F := Ideal)) (W2 m ρ c) (Proc.devRef .tc main_v3) = _
  after_results
  rw [W2_of_ne m ρ c main_v3 (by decide)]
  show StableHlo.after (hostOps0 (F := Ideal)) (W0 m ρ c) (Proc.devRef .tc main_v3) = _
  after_results
  all_goals rfl

theorem V3_v10 (c : Dev nD) : (V3 m ρ c main_v10 : S1x1024.Idx → EReal)
    = shapeCast S1x1024 (mulf (m ((c.tc : Thread nD τ).loc main_arg4))
        (broadcastInDim S1024 ![] bcast_S_S1024 (constant (F := Ideal) S_ .f32 0x3D000000#32))) shapeCasts_S1024_S1x1024 := by
  show StableHlo.after (hostOps1 (F := Ideal)) (W2 m ρ c) (Proc.devRef .tc main_v10) = _
  after_results
  rw [W2_of_ne m ρ c main_v10 (by decide)]
  show StableHlo.after (hostOps0 (F := Ideal)) (W0 m ρ c) (Proc.devRef .tc main_v10) = _
  after_results
  all_goals rfl

theorem V3_v16 (c : Dev nD) : (V3 m ρ c main_v16 : S8x2048x1024.Idx → EReal)
    = shapeCast S8x2048x1024 ((dat0 (V1 m ρ) c).arrAt 6 cfg0.N) shapeCasts_S16384x1024_S8x2048x1024 := by
  have h6 : W2 m ρ c (Proc.devRef .tc main_v15_0) = (dat0 (V1 m ρ) c).arrAt 6 cfg0.N := W2_arr m ρ c 6
  show StableHlo.after (hostOps1 (F := Ideal)) (W2 m ρ c) (Proc.devRef .tc main_v16) = _
  after_results
  rw [h6]
  all_goals rfl

theorem V3_v17 (c : Dev nD) : (V3 m ρ c main_v17 : S8x2048x1024.Idx → EReal)
    = shapeCast S8x2048x1024 ((dat0 (V1 m ρ) c).arrAt 7 cfg0.N) shapeCasts_S16384x1024_S8x2048x1024 := by
  have h7 : W2 m ρ c (Proc.devRef .tc main_v15_1) = (dat0 (V1 m ρ) c).arrAt 7 cfg0.N := W2_arr m ρ c 7
  show StableHlo.after (hostOps1 (F := Ideal)) (W2 m ρ c) (Proc.devRef .tc main_v17) = _
  after_results
  rw [h7]
  all_goals rfl

end Cert.KernelIdeal.Glue

end
-- ==== Proof.LibFlatten.lean ====
/-
  General lemmas: a rank-three array `[a, b, c]` recast to `[N, c]` with its two leading axes merged, and back, read at an
  index: row `p · b + s` of the merged array is row `(p, s)` of the rank-three one. None mentions a program.
-/
import Idealize.ShloMosaic.Lib.ValueIdx
import Idealize.ShloMosaic.Lib.Pipeline.Value

noncomputable section

namespace Cert.FlattenLib

open Idealize.ShloMosaic Idealize.ShloMosaic.ValueIdx

variable {α : Type}

/-- Merging the leading axes: the recast array at `(r, k)`, `r = p · b + s`, is the array at `(p, s, k)`. -/
theorem shapeCast_merge_apply {a b c N : ℕ} (x : (⟨3, ![a, b, c]⟩ : Shape).Idx → α)
    (h : (⟨3, ![a, b, c]⟩ : Shape).ShapeCasts ⟨2, ![N, c]⟩) (p : Fin a) (s : Fin b) (k : Fin c) (r : Fin N)
    (hr : r.val = p.val * b + s.val) : shapeCast ⟨2, ![N, c]⟩ x h (ix2 r k) = x (ix3 p s k) :=
  shapeCast_apply x h _ _ (by
    rw [Shape.rowMajor_val_three, Shape.rowMajor_val_two]
    show (p.val * b + s.val) * c + k.val = r.val * c + k.val
    rw [hr])

/-- Splitting the leading axis: the recast array at `(p, s, k)` is the array at `(r, k)`, `r = p · b + s`. -/
theorem shapeCast_split_apply {a b c N : ℕ} (y : (⟨2, ![N, c]⟩ : Shape).Idx → α)
    (h : (⟨2, ![N, c]⟩ : Shape).ShapeCasts ⟨3, ![a, b, c]⟩) (p : Fin a) (s : Fin b) (k : Fin c) (r : Fin N)
    (hr : r.val = p.val * b + s.val) : shapeCast ⟨3, ![a, b, c]⟩ y h (ix3 p s k) = y (ix2 r k) :=
  shapeCast_apply y h _ _ (by
    rw [Shape.rowMajor_val_two, Shape.rowMajor_val_three]
    show r.val * c + k.val = (p.val * b + s.val) * c + k.val
    rw [hr])

end Cert.FlattenLib

end
-- ==== Proof.KernelValue.lean ====
/-
  The idealized kernel's result as one function of the argument arrays. The attention call ends with its result array at the attention
  output of what it found; what it found is, read back through the host operations and the projection call: the query embeddings, the
  query weights times the scale read transposed, the scaled query bias, and the key and value rows `x · Wᵀ + b`. Index by index this is
  the attention function with the scale folded into the query layer.
-/
import proofs.«165551_j90838558310712_2_alg».proof.Proof.KernelRun
import proofs.«165551_j90838558310712_2_alg».proof.Proof.KvValue
import proofs.«165551_j90838558310712_2_alg».proof.Proof.AttnValue
import proofs.«165551_j90838558310712_2_alg».proof.Proof.Glue
import proofs.«165551_j90838558310712_2_alg».proof.Proof.LibFlatten

set_option maxRecDepth 16384

noncomputable section

namespace Cert.KernelIdeal.KernelValue

open Cert.KernelIdeal Cert.KernelIdeal.Gen Idealize.ShloMosaic Idealize.ShloMosaic.TcCoe Idealize.SL.Sem Idealize.ShloMosaic.ValueIdx
open Cert.LayoutLib Cert.DenseLib Cert.RowBlocks Cert.TransposedLib Cert.FlattenLib Cert.AttnSpec Cert.AttnConsts
open Cert.KernelIdeal.KvValue Cert.KernelIdeal.AttnValue

/-- A projected key (value) row, recast to `[8, 2048, 1024]`: entry `(n, k, d)` is the linear layer of row `(n, k)` at feature `d`. -/
theorem kv_entry (X3 : FVec Ideal S8x2048x1024 .f32) (W : FVec Ideal S1024x1024 .f32) (b : FVec Ideal S1024 .f32)
    (n : Fin 8) (k : Fin 2048) (d : Fin 1024) :
    shapeCast S8x2048x1024 (kvOut (shapeCast S16384x1024 X3 shapeCasts_S8x2048x1024_S16384x1024)
        (transpose S1024x1024 [1, 0] (truncf .bf16 W bitsLt_bf16_f32) transposes_S1024x1024_S1024x1024_1_0)
        (shapeCast S1x1024 b shapeCasts_S1024_S1x1024)) shapeCasts_S16384x1024_S8x2048x1024 (ix3 n k d)
      = lin (row3 X3 n k) W b d := by
  have hr : n.val * 2048 + k.val < 16384 := by omega
  rw [shapeCast_split_apply _ shapeCasts_S16384x1024_S8x2048x1024 n k d ⟨n.val * 2048 + k.val, hr⟩ rfl]
  show (∑ e : Fin 1024, (shapeCast S16384x1024 X3 shapeCasts_S8x2048x1024_S16384x1024) (ix2 ⟨n.val * 2048 + k.val, hr⟩ e)
        * (transpose S1024x1024 [1, 0] (truncf .bf16 W bitsLt_bf16_f32) transposes_S1024x1024_S1024x1024_1_0) (ix2 e d))
      + (shapeCast S1x1024 b shapeCasts_S1024_S1x1024) (ix2 (0 : Fin 1) d)
    = (∑ e : Fin 1024, X3 (ix3 n k e) * W (ix2 d e)) + b (ix1 d)
  rw [shapeCast_vecRow_apply]
  refine congrArg (· + b (ix1 d)) (Finset.sum_congr rfl fun e _ => ?_)
  rw [shapeCast_merge_apply X3 shapeCasts_S8x2048x1024_S16384x1024 n k e ⟨n.val * 2048 + k.val, hr⟩ rfl, transpose_eq_tr, tr_apply]
  rfl

/-- The query layer as the attention call finds it — the weights times the scale read transposed, the scaled bias as a row — is the
    layer with the scale folded in. -/
theorem q_entry (X : FVec Ideal S8x2048x1024 .f32) (Wq : FVec Ideal S1024x1024 .f32) (bq : FVec Ideal S1024 .f32) (n : Fin 8) (s : Fin 2048) :
    qrow (fun e => X (ix3 n s e))
        (transpose S1024x1024 [1, 0] (truncf .bf16 (mulf Wq (broadcastInDim S1024x1024 ![] bcast_S_S1024x1024
          (constant (F := Ideal) S_ .f32 0x3D000000#32))) bitsLt_bf16_f32) transposes_S1024x1024_S1024x1024_1_0)
        (shapeCast S1x1024 (mulf bq (broadcastInDim S1024 ![] bcast_S_S1024 (constant (F := Ideal) S_ .f32 0x3D000000#32)))
          shapeCasts_S1024_S1x1024)
      = linScaled scaleK (row3 X n s) Wq bq := by
  refine qrow_eq_linScaled scaleK _ Wq bq _ _ (fun e d => ?_) (fun d => ?_)
  · rw [transpose_eq_tr, tr_apply]
    show Wq (ix2 d e) * (broadcastInDim S1024x1024 ![] bcast_S_S1024x1024 (constant (F := Ideal) S_ .f32 0x3D000000#32)) (ix2 d e)
      = Wq (ix2 d e) * scaleK
    rw [broadcastInDim_scalar_apply]
    rfl
  · rw [shapeCast_vecRow_apply]
    show bq (ix1 d) * (broadcastInDim S1024 ![] bcast_S_S1024 (constant (F := Ideal) S_ .f32 0x3D000000#32)) (ix1 d) = bq (ix1 d) * scaleK
    rw [broadcastInDim_scalar_apply]
    rfl

variable (m : (ℓ : Loc nD τ sig) → Buf (Elt Ideal) ℓ) (ρ : Dev nD → PrngReg)

/-- The result array after the run is the attention output of what the attention call found. -/
theorem result_eq (c : Dev nD) :
    W4 m ρ c (Proc.devRef .tc main_v18)
      = attnOut (V3 m ρ c main_arg0) (V3 m ρ c main_v3) (V3 m ρ c main_v10) (V3 m ρ c main_v16) (V3 m ρ c main_v17) :=
  (Cert.KernelIdeal.RunValue.W4_result m ρ c).trans (final5 (V3 m ρ) c)

/-- Entry `(n, s, h)` of the result is the attention function of the argument arrays, the scale folded into the query layer. -/
theorem result_apply (c : Dev nD) (n : Fin 8) (s : Fin 2048) (h : Fin 1024) :
    (W4 m ρ c (Proc.devRef .tc main_v18) : S8x2048x1024.Idx → EReal) (ix3 n s h)
      = attnPre scaleK (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg5)) (m ((c.tc : Thread nD τ).loc main_arg7))
          (m ((c.tc : Thread nD τ).loc main_arg4)) (m ((c.tc : Thread nD τ).loc main_arg6)) (m ((c.tc : Thread nD τ).loc main_arg8)) n s h := by
  rw [result_eq]
  show attnRow (fun e => V3 m ρ c main_arg0 (ix3 n s e)) (V3 m ρ c main_v3) (V3 m ρ c main_v10)
      (fun k d => V3 m ρ c main_v16 (ix3 n k d)) (fun k h' => V3 m ρ c main_v17 (ix3 n k h')) h = _
  rw [Glue.V3_arg0, Glue.V3_v3, Glue.V3_v10, Glue.V3_v16, Glue.V3_v17, final6, final7,
    Glue.V1_v13, Glue.V1_v14, Glue.V1_v5, Glue.V1_v7, Glue.V1_v11, Glue.V1_v12]
  unfold attnRow attnPre
  rw [q_entry]
  refine congrFun (congrArg₂ softAttn (congrArg (score _) ?_) ?_) h
  · exact funext fun k => funext fun d => kv_entry _ _ _ n k d
  · exact funext fun k => funext fun d => kv_entry _ _ _ n k d

end Cert.KernelIdeal.KernelValue

end
-- ==== Proof.RefValue.lean ====
/-
  The reference's result, read at one index, is the attention function of the specification.

  Each of the reference's operations is read at an index from its operands at an index; composing the readings, the projection
  stages are linear layers of a row, the scaled contraction of a query row with the key rows is the score row times the scale,
  the running maximum over the last axis is the maximum of the score row, and the exponentials, their sum, the quotient and the
  last contraction assemble the softmax of the score row laid against the value rows.
-/
import proofs.«165551_j90838558310712_2_alg».proof.Proof.Gen.ReferenceIdeal.Read
import proofs.«165551_j90838558310712_2_alg».proof.Proof.LibAttention
import proofs.«165551_j90838558310712_2_alg».proof.Proof.Consts
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
  Idealize.ShloMosaic.StableHlo Idealize.SL.Sem

/-- The query projection at `(n, s, d)` is the linear layer of row `(n, s)` at feature `d`. -/
theorem proj_q (x0 : (⟨S8x2048x1024, .f32⟩ : BufTy).Contents (Elt Ideal)) (x3 : (⟨S1024x1024, .f32⟩ : BufTy).Contents (Elt Ideal))
    (x4 : (⟨S1024, .f32⟩ : BufTy).Contents (Elt Ideal)) (n : Fin 8) (s : Fin 2048) (d : Fin 1024) :
    val_main_v3 (F := Ideal) x0 x3 x4 (ix3 n s d) = Cert.AttnSpec.lin (Cert.AttnSpec.row3 x0 n s) x3 x4 d := by
  rw [val_main_v3_apply, val_main_v0_apply, val_main_v2_apply, val_main_v1_apply]
  unfold Cert.AttnSpec.lin Cert.AttnSpec.row3
  refine congrArg₂ (· + ·) (Finset.sum_congr rfl fun e _ => congrArg₂ (· * ·) (congrArg x0 ?_) (congrArg x3 ?_)) (congrArg x4 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The scale the reference computes: one over the square root of `1024`. -/
theorem scale_eq (i : S_.Idx) : val_main_v13 (F := Ideal) i = Cert.AttnConsts.scaleR := rfl

/-- The key projection at `(n, k, d)` is the linear layer of row `(n, k)` at feature `d`. -/
theorem proj_k (x1 : (⟨S8x2048x1024, .f32⟩ : BufTy).Contents (Elt Ideal)) (x5 : (⟨S1024x1024, .f32⟩ : BufTy).Contents (Elt Ideal))
    (x6 : (⟨S1024, .f32⟩ : BufTy).Contents (Elt Ideal)) (n : Fin 8) (k : Fin 2048) (d : Fin 1024) :
    val_main_v7 (F := Ideal) x1 x5 x6 (ix3 n k d) = Cert.AttnSpec.lin (Cert.AttnSpec.row3 x1 n k) x5 x6 d := by
  rw [val_main_v7_apply, val_main_v4_apply, val_main_v6_apply, val_main_v5_apply]
  unfold Cert.AttnSpec.lin Cert.AttnSpec.row3
  refine congrArg₂ (· + ·) (Finset.sum_congr rfl fun e _ => congrArg₂ (· * ·) (congrArg x1 ?_) (congrArg x5 ?_)) (congrArg x6 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The value projection at `(n, k, h)` is the linear layer of row `(n, k)` at feature `h`. -/
theorem proj_v (x2 : (⟨S8x2048x1024, .f32⟩ : BufTy).Contents (Elt Ideal)) (x7 : (⟨S1024x1024, .f32⟩ : BufTy).Contents (Elt Ideal))
    (x8 : (⟨S1024, .f32⟩ : BufTy).Contents (Elt Ideal)) (n : Fin 8) (k : Fin 2048) (h : Fin 1024) :
    val_main_v11 (F := Ideal) x2 x7 x8 (ix3 n k h) = Cert.AttnSpec.lin (Cert.AttnSpec.row3 x2 n k) x7 x8 h := by
  rw [val_main_v11_apply, val_main_v8_apply, val_main_v10_apply, val_main_v9_apply]
  unfold Cert.AttnSpec.lin Cert.AttnSpec.row3
  refine congrArg₂ (· + ·) (Finset.sum_congr rfl fun e _ => congrArg₂ (· * ·) (congrArg x2 ?_) (congrArg x7 ?_)) (congrArg x8 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The scaled score at `(n, s, k)`: the query row `(n, s)` against the key row `(n, k)`, times the scale. -/
theorem score_eq (x0 x1 : (⟨S8x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (n : Fin 8) (s : Fin 2048) (k : Fin 2048) :
    val_main_v16 (F := Ideal) x0 x1 x3 x4 x5 x6 (ix3 n s k)
      = Cert.AttnSpec.score (Cert.AttnSpec.lin (Cert.AttnSpec.row3 x0 n s) x3 x4)
          (fun k' => Cert.AttnSpec.lin (Cert.AttnSpec.row3 x1 n k') x5 x6) k * Cert.AttnConsts.scaleR := by
  rw [val_main_v16_apply, val_main_v14_apply, val_main_v15_apply, scale_eq]
  unfold Cert.AttnSpec.score
  refine congrArg (· * Cert.AttnConsts.scaleR) (Finset.sum_congr rfl fun d _ => ?_)
  have el : lidx_main_v14 (ix3 n s k) d = ix3 n s d :=
    funext fun a => Fin.ext (by match a with | ⟨0, _⟩ => rfl | ⟨1, _⟩ => rfl | ⟨2, _⟩ => rfl)
  have er : ridx_main_v14 (ix3 n s k) d = ix3 n k d :=
    funext fun a => Fin.ext (by match a with | ⟨0, _⟩ => rfl | ⟨1, _⟩ => rfl | ⟨2, _⟩ => rfl)
  rw [el, er, proj_q, proj_k]

/-- The score row `(n, s)` as the reference holds it. -/
def scoreRow (x0 x1 : (⟨S8x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (n : Fin 8) (s : Fin 2048) : Fin 2048 → EReal :=
  fun k => val_main_v16 (F := Ideal) x0 x1 x3 x4 x5 x6 (ix3 n s k)

/-- A maximum reduction over the last axis of an `8 × 2048 × 2048` array, started from `−∞`, read at `(n, s)`: the maximum of
    the row. -/
theorem reduce_max_row (y : (⟨S8x2048x2048, .f32⟩ : BufTy).Contents (Elt Ideal)) (n : Fin 8) (s : Fin 2048) :
    Host.reduce (FloatOps.maximumf (F := Ideal) (φ := .f32)) y (val_main_cst_1 (F := Ideal)) reducesTo_S8x2048x2048_S8x2048_d2 h_S_ (ix2 n s)
      = (Finset.univ : Finset (Fin 2048)).fold max ⊥ (fun k => y (ix3 n s k)) := by
  have hr : S8x2048x2048.Reduces [2] S8x2048 := by decide
  refine (Host.reduce_eq_fold_single (FloatOps.maximumf (F := Ideal) (φ := .f32)) y (val_main_cst_1 (F := Ideal)) reducesTo_S8x2048x2048_S8x2048_d2 hr h_S_
    (ix2 n s)).trans ?_
  have hl : (y ∘ hr.lift (ix2 n s)) = fun k : Fin 2048 => y (ix3 n s k) :=
    funext fun k => congrArg y (funext fun a => Fin.ext (by match a with | ⟨0, _⟩ => rfl | ⟨1, _⟩ => rfl | ⟨2, _⟩ => rfl))
  rw [hl]
  show (Finset.univ : Finset (Fin 2048)).fold max (Ideal.ofBits .f32 0xFF800000#32) (fun k => y (ix3 n s k)) = _
  rw [Cert.AttnConsts.ofBits_negInf]

/-- The row maximum at `(n, s)`: the maximum of the score row. -/
theorem rowmax_eq (x0 x1 : (⟨S8x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (n : Fin 8) (s : Fin 2048) :
    val_main_v19 (F := Ideal) x0 x1 x3 x4 x5 x6 (ix2 n s)
      = (Finset.univ : Finset (Fin 2048)).fold max ⊥ (scoreRow x0 x1 x3 x4 x5 x6 n s) := by
  rw [val_main_v19_apply, val_main_v18_apply, val_main_cst_2_apply]
  unfold val_main_v17
  rw [reduce_max_row]
  show max (Ideal.ofBits .f32 0xFF800000#32) _ = _
  rw [Cert.AttnConsts.ofBits_negInf, max_bot_left]
  rfl

/-- The shifted exponential at `(n, s, k)`: the exponential of the score less the row's maximum. -/
theorem exp_eq (x0 x1 : (⟨S8x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (n : Fin 8) (s : Fin 2048) (k : Fin 2048) :
    val_main_v23 (F := Ideal) x0 x1 x3 x4 x5 x6 (ix3 n s k)
      = Ideal.exp (scoreRow x0 x1 x3 x4 x5 x6 n s k
          - (Finset.univ : Finset (Fin 2048)).fold max ⊥ (scoreRow x0 x1 x3 x4 x5 x6 n s)) := by
  rw [val_main_v23_apply, val_main_v22_apply, val_main_v21_apply, val_main_v20_apply]
  have e : idx_main_v20 (idx_main_v21 (ix3 n s k)) = ix2 n s :=
    funext fun a => Fin.ext (by match a with | ⟨0, _⟩ => rfl | ⟨1, _⟩ => rfl)
  rw [e, rowmax_eq]
  rfl

/-- The sum of the row's shifted exponentials at `(n, s)`. -/
theorem sum_eq (x0 x1 : (⟨S8x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (n : Fin 8) (s : Fin 2048) :
    val_main_v24 (F := Ideal) x0 x1 x3 x4 x5 x6 (ix2 n s)
      = ∑ k' : Fin 2048, Ideal.exp (scoreRow x0 x1 x3 x4 x5 x6 n s k'
          - (Finset.univ : Finset (Fin 2048)).fold max ⊥ (scoreRow x0 x1 x3 x4 x5 x6 n s)) := by
  rw [val_main_v24_apply, val_main_cst_3_apply]
  show Ideal.ofBits .f32 0x00000000#32 + _ = _
  rw [Cert.AttnConsts.ofBits_zero, zero_add]
  refine Finset.sum_congr rfl fun k' _ => ?_
  have e : idx_main_v24 (ix2 n s) k' = ix3 n s k' :=
    funext fun a => Fin.ext (by match a with | ⟨0, _⟩ => rfl | ⟨1, _⟩ => rfl | ⟨2, _⟩ => rfl)
  rw [e, exp_eq]

/-- The softmax weight at `(n, s, k)`: the shifted exponential over the row's sum of them. -/
theorem soft_eq (x0 x1 : (⟨S8x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (n : Fin 8) (s : Fin 2048) (k : Fin 2048) :
    val_main_v27 (F := Ideal) x0 x1 x3 x4 x5 x6 (ix3 n s k)
      = Ideal.div (Ideal.exp (scoreRow x0 x1 x3 x4 x5 x6 n s k
            - (Finset.univ : Finset (Fin 2048)).fold max ⊥ (scoreRow x0 x1 x3 x4 x5 x6 n s)))
          (∑ k' : Fin 2048, Ideal.exp (scoreRow x0 x1 x3 x4 x5 x6 n s k'
            - (Finset.univ : Finset (Fin 2048)).fold max ⊥ (scoreRow x0 x1 x3 x4 x5 x6 n s))) := by
  rw [val_main_v27_apply, val_main_v26_apply, val_main_v25_apply]
  have e : idx_main_v25 (idx_main_v26 (ix3 n s k)) = ix2 n s :=
    funext fun a => Fin.ext (by match a with | ⟨0, _⟩ => rfl | ⟨1, _⟩ => rfl)
  rw [e, sum_eq, exp_eq]
  rfl

/-- The score row the reference holds is the specification's: the query row against every key row, times the scale. -/
theorem scoreRow_eq (x0 x1 : (⟨S8x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (n : Fin 8) (s : Fin 2048) :
    scoreRow x0 x1 x3 x4 x5 x6 n s
      = fun k => Cert.AttnSpec.score (Cert.AttnSpec.lin (Cert.AttnSpec.row3 x0 n s) x3 x4)
          (fun k' => Cert.AttnSpec.lin (Cert.AttnSpec.row3 x1 n k') x5 x6) k * Cert.AttnConsts.scaleR :=
  funext fun k => score_eq x0 x1 x3 x4 x5 x6 n s k

/-- The reference's result at `(n, s, h)` is the attention of the specification, the scale applied to the scores. -/
theorem ref_is_attention (x0 x1 x2 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (n : Fin 8) (s : Fin 2048) (h : Fin 1024) :
    Cert.ReferenceIdeal.Read.val_main_v28 (F := Ideal) x0 x1 x2 x3 x4 x5 x6 x7 x8 (ix3 n s h)
      = Cert.AttnSpec.attnPost Cert.AttnConsts.scaleR x0 x1 x2 x3 x5 x7 x4 x6 x8 n s h := by
  rw [val_main_v28_apply]
  unfold Cert.AttnSpec.attnPost Cert.AttnSpec.softAttn
  refine Finset.sum_congr rfl fun k _ => ?_
  have el : lidx_main_v28 (ix3 n s h) k = ix3 n s k :=
    funext fun a => Fin.ext (by match a with | ⟨0, _⟩ => rfl | ⟨1, _⟩ => rfl | ⟨2, _⟩ => rfl)
  have er : ridx_main_v28 (ix3 n s h) k = ix3 n k h :=
    funext fun a => Fin.ext (by match a with | ⟨0, _⟩ => rfl | ⟨1, _⟩ => rfl | ⟨2, _⟩ => rfl)
  rw [el, er, soft_eq, proj_v, scoreRow_eq]

end Cert.ReferenceIdeal.RefValue

end
-- ==== Proof.Finite.lean ====
/-
  Under the precondition every entry of every input is a real number.

  The printed predicate is, for each of the nine float inputs x, the conjunction over all entries of |x| < +inf, and
  then the conjunction of the nine results. In the extended reals |x| = max x (-x), and max x (-x) < ⊤ holds exactly
  when x is neither ⊤ nor ⊥, that is when x is (the image of) a real number.
-/
import proofs.«165551_j90838558310712_2_alg».proof.Pre_finite_inputs
import proofs.«165551_j90838558310712_2_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx Cert.Pre_finite_inputs

/-- The rank-0 shape has exactly one index. -/
instance subsingleton_scalar_idx : Subsingleton S_.Idx := ⟨fun a b => funext fun d => d.elim0⟩

/-- The f32 word 0x7F800000 (sign 0, exponent all ones, fraction 0) denotes +inf. -/
theorem ofBits_inf : Ideal.ofBits .f32 0x7F800000#32 = (⊤ : EReal) := by
  simp [Ideal.ofBits, Ideal.ieee]

/-- An extended real whose absolute value max x (-x) is below ⊤ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One bit of the comparison |x| < +inf being set says x is a real number. -/
theorem real_of_cmp (x : EReal)
    (h : Ideal.cmp .olt (max x (-x)) (Ideal.ofBits .f32 0x7F800000#32) = 1#1) : ∃ r : ℝ, x = (r : EReal) := by
  rw [ofBits_inf] at h
  refine real_of_abs_lt_top x ?_
  by_contra hn
  simp [Ideal.cmp, hn] at h

/-- If the conjunction over all entries of |x| < +inf is one, every entry of `x` is a real number: over any shape that
    reduces to the scalar shape. -/
theorem real_of_all {S : Shape} {axes : List (Fin S.rank)} (x : FVec Ideal S .f32)
    (hb : S_.BroadcastsInDim S (![] : Fin 0 → Fin S.rank)) (hr : S.ReducesTo axes S_) (hu : 0 < S_.numel) (j : S_.Idx)
    (e : Host.reduce IntOp.andi
          (cmpf .olt (Host.absf (F := Ideal) x) (broadcastInDim S ![] hb (constant (F := Ideal) S_ .f32 0x7F800000#32)))
          (constantI S_ 1 1#1) hr hu j = 1#1)
    (i : S.Idx) : ∃ r : ℝ, x i = (r : EReal) :=
  real_of_cmp (x i) (Host.reduce_andi_all _ _ hr hu j e i)

/-- Under the printed precondition every entry of each of the nine inputs is a real number. -/
theorem reals_of_pre [Cert.Pre_finite_inputs.Facts]
    (x0 x1 x2 : FVec Ideal Cert.Pre_finite_inputs.S8x2048x1024 .f32) (x3 : FVec Ideal Cert.Pre_finite_inputs.S1024x1024 .f32)
    (x4 : FVec Ideal Cert.Pre_finite_inputs.S1024 .f32) (x5 : FVec Ideal Cert.Pre_finite_inputs.S1024x1024 .f32)
    (x6 : FVec Ideal Cert.Pre_finite_inputs.S1024 .f32) (x7 : FVec Ideal Cert.Pre_finite_inputs.S1024x1024 .f32)
    (x8 : FVec Ideal Cert.Pre_finite_inputs.S1024 .f32)
    (hpre : Cert.Pre_finite_inputs.fn (F := Ideal) x0 x1 x2 x3 x4 x5 x6 x7 x8 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) ∧ (∀ i, ∃ r : ℝ, x8 i = (r : EReal)) := by
  have h := congrFun hpre ix0
  dsimp only [Cert.Pre_finite_inputs.fn, Cert.Pre_finite_inputs.fn_part1, Cert.Pre_finite_inputs.fn_part2] at h
  -- the nine results and-ed together, the last outermost
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all x0 _ _ _ _ h0, real_of_all x1 _ _ _ _ h1, real_of_all x2 _ _ _ _ h2, real_of_all x3 _ _ _ _ h3,
    real_of_all x4 _ _ _ _ h4, real_of_all x5 _ _ _ _ h5, real_of_all x6 _ _ _ _ h6, real_of_all x7 _ _ _ _ h7,
    real_of_all x8 _ _ _ _ h8⟩

end Cert.FiniteInputs
-- ==== Proof.lean ====
/-
  Scaled dot-product attention with one head, `softmax((x·Wqᵀ + bq)·(y·Wkᵀ + bk)ᵀ / √1024)·(z·Wvᵀ + bv)`, computed by two fused calls against its
  textbook form.

  The kernel program folds the scale `2⁻⁵` into the query layer's weights and bias before anything else, projects the key and value
  rows in one call (32 blocks of 512 flattened rows), and in a second call, per batch and per block of 256 query rows, projects the
  query rows, forms their scores against the batch's 2048 key rows, takes the softmax of each score row shifted by its maximum and lays
  it against the value rows. The reference forms the three projections, the scores, multiplies them by `1 / √1024`, and takes the same
  softmax and the same last product.

  Over the extended reals a change of float format is the identity, a product accumulated block by block is the product, and a sum or
  maximum in any order is the sum or maximum, so both results are, entry by entry, the softmax-weighted sum of the value rows for a row of
  scores. The score rows differ only in where the scale sits: `∑ d, ((∑ e, x e·(W(d,e)·c)) + b d·c)·K k d` against
  `(∑ d, ((∑ e, x e·W(d,e)) + b d)·K k d)·c`. These agree by distributivity, which holds because every input entry is a real number (the
  precondition) — at infinities it would not. Both scales denote `1/32`: the literal `0.03125`, and one over the square root of `1024 = 32²`.

  The three frames: the two kernel programs' frames are the generated ones; the reference's is its run with the result dropped. The
  kernel's idealization rewrote nothing, so nothing is owed for it.
-/
import proofs.«165551_j90838558310712_2_alg».proof.Defs
import proofs.«165551_j90838558310712_2_alg».proof.Proof.Gen.Kernel
import proofs.«165551_j90838558310712_2_alg».proof.Proof.Gen.Kernel.Skeleton
import proofs.«165551_j90838558310712_2_alg».proof.Proof.Gen.Kernel.Launch
import proofs.«165551_j90838558310712_2_alg».proof.Proof.Gen.Kernel.Points
import proofs.«165551_j90838558310712_2_alg».proof.Proof.Gen.Kernel.Frame
import proofs.«165551_j90838558310712_2_alg».proof.Proof.Gen.KernelIdeal
import proofs.«165551_j90838558310712_2_alg».proof.Proof.Gen.KernelIdeal.Skeleton
import proofs.«165551_j90838558310712_2_alg».proof.Proof.Gen.KernelIdeal.Launch
import proofs.«165551_j90838558310712_2_alg».proof.Proof.Gen.KernelIdeal.Points
import proofs.«165551_j90838558310712_2_alg».proof.Proof.Gen.KernelIdeal.Frame
import proofs.«165551_j90838558310712_2_alg».proof.Proof.Gen.ReferenceIdeal
import proofs.«165551_j90838558310712_2_alg».proof.Proof.Gen.Pre_finite_inputs
import proofs.«165551_j90838558310712_2_alg».proof.Proof.Gen.ReferenceIdeal.Run
import proofs.«165551_j90838558310712_2_alg».proof.Proof.Gen.ReferenceIdeal.Read
import proofs.«165551_j90838558310712_2_alg».proof.Proof.KernelValue
import proofs.«165551_j90838558310712_2_alg».proof.Proof.RefValue
import proofs.«165551_j90838558310712_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- With real entries the two results agree entry by entry: both are the attention function, and the two places of the scale agree. -/
theorem entry_eq (X Xk Xv : (⟨3, ![8, 2048, 1024]⟩ : Shape).Idx → EReal) (Wq Wk Wv : (⟨2, ![1024, 1024]⟩ : Shape).Idx → EReal)
    (bq bk bv : (⟨1, ![1024]⟩ : Shape).Idx → EReal)
    (hX : ∀ i, ∃ r : ℝ, X i = (r : EReal)) (hXk : ∀ i, ∃ r : ℝ, Xk i = (r : EReal)) (hXv : ∀ i, ∃ r : ℝ, Xv i = (r : EReal))
    (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (hWv : ∀ i, ∃ r : ℝ, Wv i = (r : EReal)) (hbv : ∀ i, ∃ r : ℝ, bv i = (r : EReal))
    (n : Fin 8) (s : Fin 2048) :
    Cert.AttnSpec.attnPost Cert.AttnConsts.scaleR X Xk Xv Wq Wk Wv bq bk bv n s
      = Cert.AttnSpec.attnPre Cert.AttnConsts.scaleK X Xk Xv Wq Wk Wv bq bk bv n s := by
  choose X' hX' using hX
  choose Xk' hXk' using hXk
  choose Xv' hXv' using hXv
  choose Wq' hWq' using hWq
  choose bq' hbq' using hbq
  choose Wk' hWk' using hWk
  choose bk' hbk' using hbk
  choose Wv' hWv' using hWv
  choose bv' hbv' using hbv
  obtain rfl : X = fun i => (X' i : EReal) := funext hX'
  obtain rfl : Xk = fun i => (Xk' i : EReal) := funext hXk'
  obtain rfl : Xv = fun i => (Xv' i : EReal) := funext hXv'
  obtain rfl : Wq = fun i => (Wq' i : EReal) := funext hWq'
  obtain rfl : bq = fun i => (bq' i : EReal) := funext hbq'
  obtain rfl : Wk = fun i => (Wk' i : EReal) := funext hWk'
  obtain rfl : bk = fun i => (bk' i : EReal) := funext hbk'
  obtain rfl : Wv = fun i => (Wv' i : EReal) := funext hWv'
  obtain rfl : bv = fun i => (bv' i : EReal) := funext hbv'
  rw [Cert.AttnConsts.scaleR_eq, Cert.AttnConsts.scaleK_eq]
  exact (Cert.AttnSpec.attnPre_eq_attnPost ((1 : ℝ) / 32) X' Xk' Xv' Wq' Wk' Wv' bq' bk' bv' n s).symm

theorem algebraic : Cert.algebraic_KernelIdeal_ReferenceIdeal := by
  intro m ρ m' ρ' hpre hagree
  refine ⟨fun c => Cert.KernelIdeal.Gen.W4 m ρ c (Proc.devRef .tc Cert.KernelIdeal.main_v18),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  obtain ⟨r0, r1, r2, r3, r4, r5, r6, r7, r8⟩ := Cert.FiniteInputs.reals_of_pre _ _ _ _ _ _ _ _ _ (hpre c)
  rw [Cert.ReferenceIdeal.Read.val_main_v28_eq, a0, a1, a2, a3, a4, a5, a6, a7, a8]
  funext i
  obtain ⟨n, s, h, rfl⟩ : ∃ (n : Fin 8) (s : Fin 2048) (h : Fin 1024), i = ix3 n s h := ⟨i 0, i 1, i 2, eq_ix3 i⟩
  refine (Cert.ReferenceIdeal.RefValue.ref_is_attention _ _ _ _ _ _ _ _ _ n s h).trans ?_
  refine Eq.trans ?_ (Cert.KernelIdeal.KernelValue.result_apply m ρ c n s h).symm
  exact congrFun (entry_eq _ _ _ _ _ _ _ _ _ r0 r1 r2 r3 r4 r5 r6 r7 r8 n s) h

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
